-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1x1024 : Shape := ⟨3, ![1024, 1, 1024]⟩
abbrev S1024 : Shape := ⟨1, ![1024]⟩
abbrev S1024x10000 : Shape := ⟨2, ![1024, 10000]⟩
abbrev S_ : Shape := ⟨0, ![]⟩

class Facts : Prop where
  bcast_S_S1024x1x1024 : S_.BroadcastsInDim S1024x1x1024 (![] : Fin 0 → Fin S1024x1x1024.rank)
  reducesTo_S1024x1x1024_S_d0_1_2 : S1024x1x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x10000 : S_.BroadcastsInDim S1024x10000 (![] : Fin 0 → Fin S1024x10000.rank)
  reducesTo_S1024x10000_S_d0_1 : S1024x10000.ReducesTo [0, 1] S_

variable [Facts]

def fn_part1 {F : FTy → Type} [FloatOps F] (main_arg4 : FVec F S1024 .f32) (main_v13 : IVec S_ 1) (main_v16 : IVec S1024x10000 1) : IVec S_ 1 :=
  let main_c_5 : IVec S_ 1 := constantI S_ 1 1#1
  let main_v17 : IVec S_ 1 := (fun x v => Host.reduce IntOp.andi x v reducesTo_S1024x10000_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S1024x1x1024 .f32) (main_arg1 : FVec F S1024 .f32) (main_arg2 : FVec F S1024x10000 .f32) (main_arg3 : FVec F S1024x10000 .f32) (main_arg4 : FVec F S1024 .f32) : IVec S_ 1 :=
  let main_v0 : FVec F S1024x1x1024 .f32 := Host.absf main_arg0
  let main_cst : FVec F S_ .f32 := constant S_ .f32 0x7F800000#32
  let main_v1 : FVec F S1024x1x1024 .f32 := broadcastInDim S1024x1x1024 ![] bcast_S_S1024x1x1024 main_cst
  let main_v2 : IVec S1024x1x1024 1 := cmpf .olt main_v0 main_v1
  let main_c : IVec S_ 1 := constantI S_ 1 1#1
  let main_v3 : IVec S_ 1 := (fun x v => Host.reduce IntOp.andi x v reducesTo_S1024x1x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x10000 .f32 := Host.absf main_arg2
  let main_cst_2 : FVec F S_ .f32 := constant S_ .f32 0x7F800000#32
  let main_v10 : FVec F S1024x10000 .f32 := broadcastInDim S1024x10000 ![] bcast_S_S1024x10000 main_cst_2
  let main_v11 : IVec S1024x10000 1 := cmpf .olt main_v9 main_v10
  let main_c_3 : IVec S_ 1 := constantI S_ 1 1#1
  let main_v12 : IVec S_ 1 := (fun x v => Host.reduce IntOp.andi x v reducesTo_S1024x10000_S_d0_1 h_S_) main_v11 main_c_3
  let main_v13 : IVec S_ 1 := andi main_v8 main_v12
  let main_v14 : FVec F S1024x10000 .f32 := Host.absf main_arg3
  let main_cst_4 : FVec F S_ .f32 := constant S_ .f32 0x7F800000#32
  let main_v15 : FVec F S1024x10000 .f32 := broadcastInDim S1024x10000 ![] bcast_S_S1024x10000 main_cst_4
  let main_v16 : IVec S1024x10000 1 := cmpf .olt main_v14 main_v15
  fn_part1 (F := F) main_arg4 main_v13 main_v16
-- ==== Kernel.lean ====
abbrev S1024x1x1024 : Shape := ⟨3, ![1024, 1, 1024]⟩
abbrev S1024 : Shape := ⟨1, ![1024]⟩
abbrev S1024x10000 : Shape := ⟨2, ![1024, 10000]⟩
abbrev S1024x1024 : Shape := ⟨2, ![1024, 1024]⟩
abbrev S_ : Shape := ⟨0, ![]⟩
abbrev S1x1024 : Shape := ⟨2, ![1, 1024]⟩
abbrev S1024x1 : Shape := ⟨2, ![1024, 1]⟩
abbrev S128x1024 : Shape := ⟨2, ![128, 1024]⟩
abbrev S128x10000 : Shape := ⟨2, ![128, 10000]⟩
abbrev S128x1 : Shape := ⟨2, ![128, 1]⟩
abbrev S128 : Shape := ⟨1, ![128]⟩
abbrev S256x10000 : Shape := ⟨2, ![256, 10000]⟩
abbrev S256x1024 : Shape := ⟨2, ![256, 1024]⟩

abbrev nBuf : Space → Nat
  | .hbm => 31
  | .vmem => 19
  | .smem => 0
  | _ => 0

abbrev bufTy : (tb : Table) → Fin (tcTables nBuf tb) → BufTy
  | .hbm, ⟨0, _⟩ => ⟨S1024x1x1024, .f32⟩
  | .hbm, ⟨1, _⟩ => ⟨S1024, .f32⟩
  | .hbm, ⟨2, _⟩ => ⟨S1024x10000, .f32⟩
  | .hbm, ⟨3, _⟩ => ⟨S1024x10000, .f32⟩
  | .hbm, ⟨4, _⟩ => ⟨S1024, .f32⟩
  | .hbm, ⟨5, _⟩ => ⟨S1024x1024, .f32⟩
  | .hbm, ⟨6, _⟩ => ⟨S1024x10000, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .f32⟩
  | .hbm, ⟨16, _⟩ => ⟨S1x1024, .f32⟩
  | .hbm, ⟨17, _⟩ => ⟨S1024x1024, .f32⟩
  | .hbm, ⟨18, _⟩ => ⟨S1024x1024, .f32⟩
  | .hbm, ⟨19, _⟩ => ⟨S1024x1024, .bf16⟩
  | .hbm, ⟨20, _⟩ => ⟨S1024x10000, .bf16⟩
  | .hbm, ⟨21, _⟩ => ⟨S1024x10000, .bf16⟩
  | .hbm, ⟨22, _⟩ => ⟨S1024x1, .f32⟩
  | .hbm, ⟨23, _⟩ => ⟨S1x1024, .f32⟩
  | .hbm, ⟨24, _⟩ => ⟨S1x1024, .f32⟩
  | .hbm, ⟨25, _⟩ => ⟨S1024x10000, .bf16⟩
  | .hbm, ⟨26, _⟩ => ⟨S1024x10000, .bf16⟩
  | .hbm, ⟨27, _⟩ => ⟨S1x1024, .f32⟩
  | .hbm, ⟨28, _⟩ => ⟨S1024x1024, .f32⟩
  | .hbm, ⟨29, _⟩ => ⟨S1024x1x1024, .f32⟩
  | .hbm, ⟨30, _⟩ => ⟨S1024x1x1024, .f32⟩
  | .local _ .vmem, ⟨0, _⟩ => ⟨S128x1024, .bf16⟩
  | .local _ .vmem, ⟨1, _⟩ => ⟨S128x1024, .bf16⟩
  | .local _ .vmem, ⟨2, _⟩ => ⟨S1024x10000, .bf16⟩
  | .local _ .vmem, ⟨3, _⟩ => ⟨S128x10000, .bf16⟩
  | .local _ .vmem, ⟨4, _⟩ => ⟨S128x10000, .bf16⟩
  | .local _ .vmem, ⟨5, _⟩ => ⟨S128x1, .f32⟩
  | .local _ .vmem, ⟨6, _⟩ => ⟨S128x1, .f32⟩
  | .local _ .vmem, ⟨7, _⟩ => ⟨S1024x10000, .bf16⟩
  | .local _ .vmem, ⟨8, _⟩ => ⟨S1024x1, .f32⟩
  | .local _ .vmem, ⟨9, _⟩ => ⟨S1x1024, .f32⟩
  | .local _ .vmem, ⟨10, _⟩ => ⟨S1x1024, .f32⟩
  | .local _ .vmem, ⟨11, _⟩ => ⟨S128x10000, .bf16⟩
  | .local _ .vmem, ⟨12, _⟩ => ⟨S128x10000, .bf16⟩
  | .local _ .vmem, ⟨13, _⟩ => ⟨S256x10000, .bf16⟩
  | .local _ .vmem, ⟨14, _⟩ => ⟨S256x10000, .bf16⟩
  | .local _ .vmem, ⟨15, _⟩ => ⟨S1024x10000, .bf16⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | _, _ => ⟨S1024x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x10000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x10000 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def k1_mult1 (i : grid1.Coords) : BitVec 32 :=
  let arg0 : BitVec 32 := BitVec.ofNat 32 (i 0).val
  let c128_i32 : BitVec 32 := 128#32
  let v0 : BitVec 32 := Scalar.muli arg0 c128_i32
  v0
def k1_off1 (i : grid1.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v2 : Index := Scalar.indexCast v1
  let c0 : Index := 0#32
  ![v2.toNat, 0]
def k1_off2 (i : grid1.Coords) : Fin 2 → Nat :=
  let arg0 : BitVec 32 := BitVec.ofNat 32 (i 0).val
  let c128_i32 : BitVec 32 := 128#32
  let v0 : BitVec 32 := Scalar.muli arg0 c128_i32
  let v1 : BitVec 32 := v0
  let v8 : Index := Scalar.indexCast v1
  let c0_2 : Index := 0#32
  ![v8.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1024x10000 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x10000 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x10000 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S1024x1x1024_S1024x1024 : S1024x1x1024.ShapeCasts S1024x1024
  reducesTo_S1024x10000_S1024_d1 : S1024x10000.ReducesTo [1] S1024
  h_S_ : 0 < S_.numel
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x10000_S1024x10000_0_0 : ∀ a, (![0, 0] : Fin 2 → Nat) a + S1024x10000.size a ≤ S1024x10000.size a
  h_S1024x10000 : 0 < S1024x10000.numel
  shapeCasts_S1024x10000_S1024x10000 : S1024x10000.ShapeCasts S1024x10000
  reduces_S128x10000_S128 : S128x10000.Reduces [1] S128
  shapeCasts_S128_S128x1 : S128.ShapeCasts S128x1
  inb_S128x10000_S128x10000_0_0 : ∀ a, (![0, 0] : Fin 2 → Nat) a + S128x10000.size a ≤ S128x10000.size a
  h_S128x10000 : 0 < S128x10000.numel
  packedbf16_S128x10000_S128x10000_0_0 : (Rect.unit (s := S128x10000) ![0, 0] S128x10000.size inb_S128x10000_S128x10000_0_0).PackedRows (EltTy.packing .bf16)
  inb_S128x1_S128x1_0_0 : ∀ a, (![0, 0] : Fin 2 → Nat) a + S128x1.size a ≤ S128x1.size a
  h_S128x1 : 0 < S128x1.numel
  shapeCasts_S1024_S1x1024 : S1024.ShapeCasts S1x1024
  shapeCasts_S1024x1_S1x1024 : S1024x1.ShapeCasts S1x1024
  shapeCasts_S128x10000_S128x10000 : S128x10000.ShapeCasts S128x10000
  shapeCasts_S128x1_S128x1 : S128x1.ShapeCasts S128x1
  broadcasts_S128x1_S128x1024 : S128x1.Broadcasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  reduces_S128x1024_S128 : S128x1024.Reduces [1] S128
  inb_S256x10000_S256x10000_0_0 : ∀ a, (![0, 0] : Fin 2 → Nat) a + S256x10000.size a ≤ S256x10000.size a
  h_S256x10000 : 0 < S256x10000.numel
  shapeCasts_S256x10000_S256x10000 : S256x10000.ShapeCasts S256x10000
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  bcast_S1024x1024_S1024x1x1024_0_2 : S1024x1024.BroadcastsInDim S1024x1x1024 (![0, 2] : Fin 2 → Fin S1024x1x1024.rank)
  dot_S128x1024_S1024x10000_S128x10000_1_0_0_1_n_n_wf : DotDims.WF S128x1024 S1024x10000 S128x10000 [1] [0] [0] [1] [] []
  dot_S128x10000_S1024x10000_S128x1024_1_1_0_0_n_n_wf : DotDims.WF S128x10000 S1024x10000 S128x1024 [1] [1] [0] [0] [] []
  dot_S256x10000_S1024x10000_S256x1024_1_1_0_0_n_n_wf : DotDims.WF S256x10000 S1024x10000 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S1024x1024.size a
  hwx0_0 : ∀ i : grid0.Coords, EltTy.bits .bf16 = 32 ∨ (Rect.block (s := S1024x1024) S128x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x10000.size a ≤ S1024x10000.size a
  hwx0_1 : ∀ i : grid0.Coords, EltTy.bits .bf16 = 32 ∨ (Rect.block (s := S1024x10000) S1024x10000.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x10000.size a ≤ S1024x10000.size a
  hwx0_2 : ∀ i : grid0.Coords, EltTy.bits .bf16 = 32 ∨ (Rect.block (s := S1024x10000) S128x10000.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S1024x1.size a
  hwx0_3 : ∀ i : grid0.Coords, EltTy.bits .f32 = 32 ∨ (Rect.block (s := S1024x1) S128x1.size (cc0_transform_3 i) (hinb0_3 i)).WholeWords (EltTy.packing .f32)
  hrank1 : 0 < grid1.rank
  k1_mult1_dvd : ∀ i : grid1.Coords, 128 ∣ (k1_mult1 i).toNat
  k1_off1_inb : ∀ i : grid1.Coords, ∀ a, (k1_off1 i) a + S128x10000.size a ≤ S1024x10000.size a
  k1_off2_inb : ∀ i : grid1.Coords, ∀ a, (k1_off2 i) a + S128x1.size a ≤ S1024x1.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1024x10000.size a ≤ S1024x10000.size a
  hwx1_0 : ∀ i : grid1.Coords, EltTy.bits .bf16 = 32 ∨ (Rect.block (s := S1024x10000) S1024x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S1024x1.size a
  hwx1_1 : ∀ i : grid1.Coords, EltTy.bits .f32 = 32 ∨ (Rect.block (s := S1024x1) S1024x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x10000.size a ≤ S1024x10000.size a
  hwx1_4 : ∀ i : grid1.Coords, EltTy.bits .bf16 = 32 ∨ (Rect.block (s := S1024x10000) S128x10000.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x10000.size a ≤ S1024x10000.size a
  hwx2_0 : ∀ i : grid2.Coords, EltTy.bits .bf16 = 32 ∨ (Rect.block (s := S1024x10000) S256x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x10000.size a ≤ S1024x10000.size a
  hwx2_1 : ∀ i : grid2.Coords, EltTy.bits .bf16 = 32 ∨ (Rect.block (s := S1024x10000) S1024x10000.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1024.size a ≤ S1024x1024.size a
  hwx2_3 : ∀ i : grid2.Coords, EltTy.bits .f32 = 32 ∨ (Rect.block (s := S1024x1024) S256x1024.size (cc2_transform_3 i) (hinb2_3 i)).WholeWords (EltTy.packing .f32)

variable [Facts₀]

def dot_S128x1024_S1024x10000_S128x10000_1_0_0_1_n_n : DotDims S128x1024 S1024x10000 S128x10000 where
  lhsContracting := [1]
  rhsContracting := [0]
  lhsNonContracting := [0]
  rhsNonContracting := [1]
  lhsBatch := []
  rhsBatch := []
  wf := dot_S128x1024_S1024x10000_S128x10000_1_0_0_1_n_n_wf
def dot_S128x10000_S1024x10000_S128x1024_1_1_0_0_n_n : DotDims S128x10000 S1024x10000 S128x1024 where
  lhsContracting := [1]
  rhsContracting := [1]
  lhsNonContracting := [0]
  rhsNonContracting := [0]
  lhsBatch := []
  rhsBatch := []
  wf := dot_S128x10000_S1024x10000_S128x1024_1_1_0_0_n_n_wf
def dot_S256x10000_S1024x10000_S256x1024_1_1_0_0_n_n : DotDims S256x10000 S1024x10000 S256x1024 where
  lhsContracting := [1]
  rhsContracting := [1]
  lhsNonContracting := [0]
  rhsNonContracting := [0]
  lhsBatch := []
  rhsBatch := []
  wf := dot_S256x10000_S1024x10000_S256x1024_1_1_0_0_n_n_wf

abbrev win0_0 : Pipeline.Window sig grid0 :=
  Pipeline.Window.ofSpec (Memref.whole main_v11) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x10000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13_0) S128x10000.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13_1) S128x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13_0) S1024x10000.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v13_1) S1024x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S128x10000.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v16) S256x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S1024x10000.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v19) S256x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1024x1x1024 : Shape := ⟨3, ![1024, 1, 1024]⟩
abbrev S1024 : Shape := ⟨1, ![1024]⟩
abbrev S1024x10000 : Shape := ⟨2, ![1024, 10000]⟩
abbrev S_ : Shape := ⟨0, ![]⟩
abbrev S1024x1 : Shape := ⟨2, ![1024, 1]⟩
abbrev S1024x1024 : Shape := ⟨2, ![1024, 1024]⟩
abbrev S10000x1024 : Shape := ⟨2, ![10000, 1024]⟩
abbrev S1x1024 : Shape := ⟨2, ![1, 1024]⟩

abbrev nBuf : Space → Nat
  | .hbm => 64
  | .vmem => 0
  | .smem => 0
  | _ => 0

abbrev bufTy : (tb : Table) → Fin (tcTables nBuf tb) → BufTy
  | .hbm, ⟨0, _⟩ => ⟨S1024x1x1024, .f32⟩
  | .hbm, ⟨1, _⟩ => ⟨S1024, .f32⟩
  | .hbm, ⟨2, _⟩ => ⟨S1024x10000, .f32⟩
  | .hbm, ⟨3, _⟩ => ⟨S1024x10000, .f32⟩
  | .hbm, ⟨4, _⟩ => ⟨S1024, .f32⟩
  | .hbm, ⟨5, _⟩ => ⟨S1024x10000, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x10000, .f32⟩
  | .hbm, ⟨14, _⟩ => ⟨S1024x10000, .f32⟩
  | .hbm, ⟨15, _⟩ => ⟨S1024x1024, .f32⟩
  | .hbm, ⟨16, _⟩ => ⟨S1024x10000, .f32⟩
  | .hbm, ⟨17, _⟩ => ⟨S1024x10000, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1024x10000, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S10000x1024, .f32⟩
  | .hbm, ⟨32, _⟩ => ⟨S1024x1024, .f32⟩
  | .hbm, ⟨33, _⟩ => ⟨S1024x1, .f32⟩
  | .hbm, ⟨34, _⟩ => ⟨S1x1024, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S1024x1024, .f32⟩
  | .hbm, ⟨39, _⟩ => ⟨S1x1024, .f32⟩
  | .hbm, ⟨40, _⟩ => ⟨S1024x1024, .f32⟩
  | .hbm, ⟨41, _⟩ => ⟨S1024x1024, .f32⟩
  | .hbm, ⟨42, _⟩ => ⟨S_, .f32⟩
  | .hbm, ⟨43, _⟩ => ⟨S1024, .f32⟩
  | .hbm, ⟨44, _⟩ => ⟨S_, .f32⟩
  | .hbm, ⟨45, _⟩ => ⟨S1024, .f32⟩
  | .hbm, ⟨46, _⟩ => ⟨S1024, .f32⟩
  | .hbm, ⟨47, _⟩ => ⟨S1024x1, .f32⟩
  | .hbm, ⟨48, _⟩ => ⟨S1024x1024, .f32⟩
  | .hbm, ⟨49, _⟩ => ⟨S1024x1024, .f32⟩
  | .hbm, ⟨50, _⟩ => ⟨S1024x1024, .f32⟩
  | .hbm, ⟨51, _⟩ => ⟨S_, .f32⟩
  | .hbm, ⟨52, _⟩ => ⟨S1024, .f32⟩
  | .hbm, ⟨53, _⟩ => ⟨S1024x1, .f32⟩
  | .hbm, ⟨54, _⟩ => ⟨S1024x1024, .f32⟩
  | .hbm, ⟨55, _⟩ => ⟨S1024x1024, .f32⟩
  | .hbm, ⟨56, _⟩ => ⟨S1024x10000, .f32⟩
  | .hbm, ⟨57, _⟩ => ⟨S10000x1024, .f32⟩
  | .hbm, ⟨58, _⟩ => ⟨S1024x1024, .f32⟩
  | .hbm, ⟨59, _⟩ => ⟨S1x1024, .f32⟩
  | .hbm, ⟨60, _⟩ => ⟨S1024x1024, .f32⟩
  | .hbm, ⟨61, _⟩ => ⟨S1024x1024, .f32⟩
  | .hbm, ⟨62, _⟩ => ⟨S1024x1x1024, .f32⟩
  | .hbm, ⟨63, _⟩ => ⟨S1024x1x1024, .f32⟩
  | _, _ => ⟨S1024x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call1_v0 : Ref sig .tc := ⟨.hbm, 17, rfl⟩
abbrev main_call1_cst : Ref sig .tc := ⟨.hbm, 18, rfl⟩
abbrev main_call1_v1 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_call2_v0 : Ref sig .tc := ⟨.hbm, 24, rfl⟩
abbrev main_call2_cst : Ref sig .tc := ⟨.hbm, 25, rfl⟩
abbrev main_call2_v1 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]

class Facts₀ : Prop where
  reducesTo_S1024x10000_S1024_d1 : S1024x10000.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x10000_0_1 : S1024x1.BroadcastsInDim S1024x10000 (![0, 1] : Fin 2 → Fin S1024x10000.rank)
  shapeCasts_S1024x1x1024_S1024x1024 : S1024x1x1024.ShapeCasts S1024x1024
  bcast_S_S1024 : S_.BroadcastsInDim S1024 (![] : Fin 0 → Fin S1024.rank)
  transposes_S1024x10000_S10000x1024_1_0 : S1024x10000.Transposes [1, 0] S10000x1024
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  reducesTo_S1024x1024_S1024_d1 : S1024x1024.ReducesTo [1] S1024
  bcast_S1024x1024_S1024x1x1024_0_2 : S1024x1024.BroadcastsInDim S1024x1x1024 (![0, 2] : Fin 2 → Fin S1024x1x1024.rank)
  dot_S1024x1024_S1024x10000_S1024x10000_1_0_0_1_n_n_wf : DotDims.WF S1024x1024 S1024x10000 S1024x10000 [1] [0] [0] [1] [] []
  dot_S1024x10000_S10000x1024_S1024x1024_1_0_0_1_n_n_wf : DotDims.WF S1024x10000 S10000x1024 S1024x1024 [1] [0] [0] [1] [] []

variable [Facts₀]

def dot_S1024x1024_S1024x10000_S1024x10000_1_0_0_1_n_n : DotDims S1024x1024 S1024x10000 S1024x10000 where
  lhsContracting := [1]
  rhsContracting := [0]
  lhsNonContracting := [0]
  rhsNonContracting := [1]
  lhsBatch := []
  rhsBatch := []
  wf := dot_S1024x1024_S1024x10000_S1024x10000_1_0_0_1_n_n_wf
def dot_S1024x10000_S10000x1024_S1024x1024_1_0_0_1_n_n : DotDims S1024x10000 S10000x1024 S1024x1024 where
  lhsContracting := [1]
  rhsContracting := [0]
  lhsNonContracting := [0]
  rhsNonContracting := [1]
  lhsBatch := []
  rhsBatch := []
  wf := dot_S1024x10000_S10000x1024_S1024x1024_1_0_0_1_n_n_wf

class Facts : Prop extends Facts₀ where

variable [Facts]
-- ==== Proof.KRun.lean ====
/-
  The idealized kernel's run with its result named.

  @main is seven segments: four stretches of host operations around three kernel regions. Along the run the
  contents of every buffer that outlives a region are a fold from the launch memory: a host stretch applies
  its operations, a region replaces its windows' arrays by what the write-backs leave. Every weakly fair
  execution terminates without a fault in a state whose every such buffer holds the last value of that fold;
  read at the result buffer this names the result, read at the argument buffers it says they end as launched.
-/
import proofs.«133027_j51049981280862_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last value of
    the fold of its segments from the launch memory, and the five argument arrays as launched. -/
theorem run_result : θ_run defs (onTc (τ := τ) (main (F := F))) ⟨m, fun _ => 0, ρ⟩ (fun r => ∀ c : Dev nD,
      r.2.mem ((c.tc : Thread nD τ).loc main_v21) = W7 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v21 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.Run

end
-- ==== Proof.Stages.lean ====
/-
  The stages of the computation as whole-array functions over the extended reals, index by index.

  With rows `r, m : Fin 1024`, hidden coordinates `k : Fin 1024` and hyperdimensional coordinates
  `d : Fin 10000`:
  * `matProd x y` is the matrix product `(x·y)[r,d] = ∑ k, x[r,k] · y[k,d]`;
  * `invNormOf e` is the column `1 / max (√(∑ d, e[r,d]²)) ε` of clamped reciprocal row norms;
  * `weightedOf e ic ir w` is `((⟨e[r], e[m]⟩ · ic[r]) · ir[m]) · w[m]`: the scaled Gram matrix, weighted;
  * `attnOf` is the row softmax `exp (w[r,m] - max_m w[r,·]) / ∑ m, exp (…)`;
  * `retrieveOf` is `∑ m, attn[r,m] · e[m,d]`;
  * `decodeOf h w b` is `(∑ d, h[r,d] · w[k,d]) + b[k]`.
-/
import Idealize.ShloMosaic.PureOps.Ideal
import Idealize.ShloMosaic.Lib.ValueIdx

noncomputable section

namespace Cert.Stages

open Idealize.ShloMosaic Idealize.ShloMosaic.ValueIdx

/-- A matrix of extended reals with `a` rows and `b` columns. -/
abbrev Mat (a b : Nat) : Type := (⟨2, ![a, b]⟩ : Shape).Idx → EReal

/-- The f32 words of the constants the stages use: `1`, the norm clamp `ε = f32(1e-8)` and `-∞`. -/
abbrev oneW : EReal := Ideal.ofBits .f32 0x3F800000#32
abbrev epsW : EReal := Ideal.ofBits .f32 0x322BCC77#32
abbrev negInfW : EReal := Ideal.ofBits .f32 0xFF800000#32

/-- The matrix product `(x·y)[r,d] = ∑ k, x[r,k] · y[k,d]`. -/
def matProd (x : Mat 1024 1024) (y : Mat 1024 10000) : Mat 1024 10000 :=
  fun i => ∑ k : Fin 1024, x (ix2 (i 0) k) * y (ix2 k (i 1))

/-- The squared Euclidean norm of row `r`. -/
def sumSq (e : Mat 1024 10000) (r : Fin 1024) : EReal := ∑ d : Fin 10000, e (ix2 r d) * e (ix2 r d)

/-- The clamped reciprocal row norms, as a column: `1 / max (√(∑ d, e[r,d]²)) ε`. -/
def invNormOf (e : Mat 1024 10000) : Mat 1024 1 :=
  fun i => Ideal.div oneW (max (Ideal.sqrt (sumSq e (i 0))) epsW)

/-- The inner product of rows `r` and `m`. -/
def gram (e : Mat 1024 10000) (r m : Fin 1024) : EReal := ∑ d : Fin 10000, e (ix2 r d) * e (ix2 m d)

/-- The Gram matrix scaled by a column `ic` and a row `ir`, then weighted by a row `w`. -/
def weightedOf (e : Mat 1024 10000) (ic : Mat 1024 1) (ir w : Mat 1 1024) : Mat 1024 1024 :=
  fun i => ((gram e (i 0) (i 1) * ic (ix2 (i 0) 0)) * ir (ix2 0 (i 1))) * w (ix2 0 (i 1))

/-- The maximum of row `r`, folded from `-∞`. -/
def rowMax (s : Mat 1024 1024) (r : Fin 1024) : EReal :=
  (Finset.univ : Finset (Fin 1024)).fold max negInfW (fun m => s (ix2 r m))

/-- `exp (s[r,m] - max_m s[r,·])`. -/
def expOf (s : Mat 1024 1024) : Mat 1024 1024 := fun i => Ideal.exp (s i - rowMax s (i 0))

/-- The row softmax. -/
def attnOf (s : Mat 1024 1024) : Mat 1024 1024 :=
  fun i => Ideal.div (expOf s i) (∑ m : Fin 1024, expOf s (ix2 (i 0) m))

/-- The attention-weighted sum of the rows of `e`. -/
def retrieveOf (e : Mat 1024 10000) (ic : Mat 1024 1) (ir w : Mat 1 1024) : Mat 1024 10000 :=
  fun i => ∑ m : Fin 1024, attnOf (weightedOf e ic ir w) (ix2 (i 0) m) * e (ix2 m (i 1))

/-- The decoder: `(∑ d, h[r,d] · w[k,d]) + b[k]`. -/
def decodeOf (h w : Mat 1024 10000) (b : Mat 1 1024) : Mat 1024 1024 :=
  fun i => (∑ d : Fin 10000, h (ix2 (i 0) d) * w (ix2 (i 1) d)) + b (ix2 0 (i 1))

end Cert.Stages

end
-- ==== Proof.HostReads.lean ====
import proofs.«133027_j51049981280862_1_alg».proof.Proof.Gen.KernelIdeal.Frame
import proofs.«133027_j51049981280862_1_alg».proof.Proof.Stages
import Idealize.ShloMosaic.Lib.StableHlo.Run
import Idealize.ShloMosaic.Lib.Pipeline.Value
import Idealize.ShloMosaic.Lib.ValueIdx

set_option maxRecDepth 16384

noncomputable section

/-
  The host side of the idealized kernel, read back to the argument arrays.

  Between the regions the host only re-lays arrays (reshapes, broadcasts, changes of float format, which are
  the identity on extended reals) and, before the first region, scales the flattened input: column `k` of
  `x` is multiplied by `1 / max (√(∑ d, B[k,d]²)) δ`, the clamped reciprocal norm of row `k` of the base
  matrix `B`. After the last region it adds the decoded rows back onto `x`. Each lemma below says what one
  window's array is when its region is entered; `result_eq` composes them with the three regions' values.
-/
namespace Cert.KernelIdeal.HostReads

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

open Cert.Stages

/-! ## The arguments, untouched by every stretch and region, at the boundaries where they are read -/

theorem W6_arg0 : W6 m ρ c (Proc.devRef .tc main_arg0) = m ((c : Thread nD τ).loc main_arg0) :=
  (show W7 m ρ c (Proc.devRef .tc main_arg0) = W6 m ρ c (Proc.devRef .tc main_arg0) by
    show StableHlo.after hostOps3 (W6 m ρ c) (Proc.devRef .tc main_arg0) = _
    after_results).symm.trans (W7_main_arg0 m ρ c)

theorem W4_arg3 : W4 m ρ c (Proc.devRef .tc main_arg3) = m ((c : Thread nD τ).loc main_arg3) :=
  (show W7 m ρ c (Proc.devRef .tc main_arg3) = W4 m ρ c (Proc.devRef .tc main_arg3) by
    show StableHlo.after hostOps3 (W6 m ρ c) (Proc.devRef .tc main_arg3) = _
    after_results
    rw [W6_of_ne m ρ c main_arg3 (by decide)]
    show StableHlo.after hostOps2 (W4 m ρ c) (Proc.devRef .tc main_arg3) = _
    after_results).symm.trans (W7_main_arg3 m ρ c)

theorem W4_arg4 : W4 m ρ c (Proc.devRef .tc main_arg4) = m ((c : Thread nD τ).loc main_arg4) :=
  (show W7 m ρ c (Proc.devRef .tc main_arg4) = W4 m ρ c (Proc.devRef .tc main_arg4) by
    show StableHlo.after hostOps3 (W6 m ρ c) (Proc.devRef .tc main_arg4) = _
    after_results
    rw [W6_of_ne m ρ c main_arg4 (by decide)]
    show StableHlo.after hostOps2 (W4 m ρ c) (Proc.devRef .tc main_arg4) = _
    after_results).symm.trans (W7_main_arg4 m ρ c)

theorem W2_arg1 : W2 m ρ c (Proc.devRef .tc main_arg1) = m ((c : Thread nD τ).loc main_arg1) :=
  (show W7 m ρ c (Proc.devRef .tc main_arg1) = W2 m ρ c (Proc.devRef .tc main_arg1) by
    show StableHlo.after hostOps3 (W6 m ρ c) (Proc.devRef .tc main_arg1) = _
    after_results
    rw [W6_of_ne m ρ c main_arg1 (by decide)]
    show StableHlo.after hostOps2 (W4 m ρ c) (Proc.devRef .tc main_arg1) = _
    after_results
    rw [W4_of_ne m ρ c main_arg1 (by decide)]
    show StableHlo.after hostOps1 (W2 m ρ c) (Proc.devRef .tc main_arg1) = _
    after_results).symm.trans (W7_main_arg1 m ρ c)

/-! ## The tail: the decoded rows, given back their unit axis, added onto the input -/

theorem tail_v21 : @Eq (FVec Ideal S1024x1x1024 .f32) (W7 m ρ c (Proc.devRef .tc main_v21))
    (addf (m ((c : Thread nD τ).loc main_arg0)) (broadcastInDim S1024x1x1024 ![0, 2] bcast_S1024x1024_S1024x1x1024_0_2 ((dat2 (V5 m ρ) c).arrAt 3 cfg2.N))) := by
  rw [← W6_arg0 m ρ c, ← W6_arr m ρ c 3]
  show StableHlo.after hostOps3 (W6 m ρ c) (Proc.devRef .tc main_v21) = _
  after_results

/-! ## The decode region's windows at its entry -/

theorem V5_v16 : @Eq (FVec Ideal S1024x10000 .bf16) (V5 m ρ c main_v16) ((dat1 (V3 m ρ) c).arrAt 4 cfg1.N) := by
  rw [← W4_arr m ρ c 4]
  show StableHlo.after hostOps2 (W4 m ρ c) (Proc.devRef .tc main_v16) = _
  after_results

theorem V5_v17 : @Eq (FVec Ideal S1024x10000 .bf16) (V5 m ρ c main_v17) (truncf .bf16 (m ((c : Thread nD τ).loc main_arg3)) bitsLt_bf16_f32) := by
  rw [← W4_arg3 m ρ c]
  show StableHlo.after hostOps2 (W4 m ρ c) (Proc.devRef .tc main_v17) = _
  after_results

theorem V5_v18 : @Eq (FVec Ideal S1x1024 .f32) (V5 m ρ c main_v18) (shapeCast S1x1024 (m ((c : Thread nD τ).loc main_arg4)) shapeCasts_S1024_S1x1024) := by
  rw [← W4_arg4 m ρ c]
  show StableHlo.after hostOps2 (W4 m ρ c) (Proc.devRef .tc main_v18) = _
  after_results
  rfl

/-! ## The retrieve region's windows at its entry -/

theorem V3_v13_0 : @Eq (FVec Ideal S1024x10000 .bf16) (V3 m ρ c main_v13_0) ((dat0 (V1 m ρ) c).arrAt 2 cfg0.N) := by
  rw [← W2_arr m ρ c 2]
  show StableHlo.after hostOps1 (W2 m ρ c) (Proc.devRef .tc main_v13_0) = _
  after_results

theorem V3_v13_1 : @Eq (FVec Ideal S1024x1 .f32) (V3 m ρ c main_v13_1) ((dat0 (V1 m ρ) c).arrAt 3 cfg0.N) := by
  rw [← W2_arr m ρ c 3]
  show StableHlo.after hostOps1 (W2 m ρ c) (Proc.devRef .tc main_v13_1) = _
  after_results

theorem V3_v15 : @Eq (FVec Ideal S1x1024 .f32) (V3 m ρ c main_v15) (shapeCast S1x1024 ((dat0 (V1 m ρ) c).arrAt 3 cfg0.N) shapeCasts_S1024x1_S1x1024) := by
  rw [← W2_arr m ρ c 3]
  show StableHlo.after hostOps1 (W2 m ρ c) (Proc.devRef .tc main_v15) = _
  after_results
  rfl

theorem V3_v14 : @Eq (FVec Ideal S1x1024 .f32) (V3 m ρ c main_v14) (shapeCast S1x1024 (m ((c : Thread nD τ).loc main_arg1)) shapeCasts_S1024_S1x1024) := by
  rw [← W2_arg1 m ρ c]
  show StableHlo.after hostOps1 (W2 m ρ c) (Proc.devRef .tc main_v14) = _
  after_results
  rfl

/-! ## The encode region's windows at its entry -/

/-- The clamped reciprocal norms of the rows of the base matrix: `1 / max (√(0 + ∑ d, B[k,d]·B[k,d])) δ`. -/
def scaleRow (x2 : FVec Ideal S1024x10000 .f32) : FVec Ideal S1024 .f32 :=
  Host.divf (broadcastInDim S1024 ![] bcast_S_S1024 (constant S_ .f32 0x3F800000#32))
    (maximumf (Host.sqrt (Host.reduceAdd (mulf x2 x2) (constant S_ .f32 0x00000000#32) reducesTo_S1024x10000_S1024_d1 h_S_))
      (broadcastInDim S1024 ![] bcast_S_S1024 (constant S_ .f32 0x2B8CBCCC#32)))

/-- The flattened input with column `k` scaled by `scaleRow B k`. -/
def scaledOf (x0 : FVec Ideal S1024x1x1024 .f32) (x2 : FVec Ideal S1024x10000 .f32) : FVec Ideal S1024x1024 .bf16 :=
  truncf .bf16 (mulf (shapeCast S1024x1024 x0 shapeCasts_S1024x1x1024_S1024x1024)
    (broadcastInDim S1024x1024 ![0, 1] bcast_S1x1024_S1024x1024_0_1 (broadcastInDim S1x1024 ![1] bcast_S1024_S1x1024_1 (scaleRow x2)))) bitsLt_bf16_f32

theorem V1_v11 : @Eq (FVec Ideal S1024x1024 .bf16) (V1 m ρ c main_v11) (scaledOf (m ((c : Thread nD τ).loc main_arg0)) (m ((c : Thread nD τ).loc main_arg2))) := by
  show StableHlo.after hostOps0 (W0 m ρ c) (Proc.devRef .tc main_v11) = _
  after_results
  rfl

theorem V1_v12 : @Eq (FVec Ideal S1024x10000 .bf16) (V1 m ρ c main_v12) (truncf .bf16 (m ((c : Thread nD τ).loc main_arg2)) bitsLt_bf16_f32) := by
  show StableHlo.after hostOps0 (W0 m ρ c) (Proc.devRef .tc main_v12) = _
  after_results

/-! ## The result as one function of the argument arrays -/

/-- The encoded rows: the scaled input times the base matrix. -/
def encOf (x0 : FVec Ideal S1024x1x1024 .f32) (x2 : FVec Ideal S1024x10000 .f32) : Mat 1024 10000 :=
  matProd (scaledOf x0 x2) (truncf .bf16 x2 bitsLt_bf16_f32)

/-- The kernel's result: the input plus the decoded, attention-retrieved encoded rows. -/
def resultOf (x0 : FVec Ideal S1024x1x1024 .f32) (x1 : FVec Ideal S1024 .f32) (x2 x3 : FVec Ideal S1024x10000 .f32) (x4 : FVec Ideal S1024 .f32) :
    FVec Ideal S1024x1x1024 .f32 :=
  addf x0 (broadcastInDim S1024x1x1024 ![0, 2] bcast_S1024x1024_S1024x1x1024_0_2
    (decodeOf (retrieveOf (encOf x0 x2) (invNormOf (encOf x0 x2)) (shapeCast S1x1024 (invNormOf (encOf x0 x2)) shapeCasts_S1024x1_S1x1024)
        (shapeCast S1x1024 x1 shapeCasts_S1024_S1x1024))
      (truncf .bf16 x3 bitsLt_bf16_f32) (shapeCast S1x1024 x4 shapeCasts_S1024_S1x1024)))

/-- Given each region's final arrays as the stage functions of its entry contents, the result buffer after the run
    is `resultOf` of the argument arrays. -/
theorem result_eq
    (h0e : ∀ (V : (c : Dev nD) → (b : Ref sig .tc) → Buf (Elt Ideal) ((c : Thread nD τ).loc b)) (c : Dev nD),
      @Eq (Mat 1024 10000) ((dat0 (F := Ideal) V c).arrAt 2 cfg0.N) (matProd (V c main_v11) (V c main_v12)))
    (h0i : ∀ (V : (c : Dev nD) → (b : Ref sig .tc) → Buf (Elt Ideal) ((c : Thread nD τ).loc b)) (c : Dev nD),
      @Eq (Mat 1024 1) ((dat0 (F := Ideal) V c).arrAt 3 cfg0.N) (invNormOf (matProd (V c main_v11) (V c main_v12))))
    (h1 : ∀ (V : (c : Dev nD) → (b : Ref sig .tc) → Buf (Elt Ideal) ((c : Thread nD τ).loc b)) (c : Dev nD),
      @Eq (Mat 1024 10000) ((dat1 (F := Ideal) V c).arrAt 4 cfg1.N) (retrieveOf (V c main_v13_0) (V c main_v13_1) (V c main_v15) (V c main_v14)))
    (h2 : ∀ (V : (c : Dev nD) → (b : Ref sig .tc) → Buf (Elt Ideal) ((c : Thread nD τ).loc b)) (c : Dev nD),
      @Eq (Mat 1024 1024) ((dat2 (F := Ideal) V c).arrAt 3 cfg2.N) (decodeOf (V c main_v16) (V c main_v17) (V c main_v18))) :
    @Eq (FVec Ideal S1024x1x1024 .f32) (W7 m ρ c (Proc.devRef .tc main_v21))
      (resultOf (m ((c : Thread nD τ).loc main_arg0)) (m ((c : Thread nD τ).loc main_arg1)) (m ((c : Thread nD τ).loc main_arg2))
        (m ((c : Thread nD τ).loc main_arg3)) (m ((c : Thread nD τ).loc main_arg4))) := by
  have e0 : @Eq (Mat 1024 10000) ((dat0 (V1 m ρ) c).arrAt 2 cfg0.N) (encOf (m ((c : Thread nD τ).loc main_arg0)) (m ((c : Thread nD τ).loc main_arg2))) := by
    rw [h0e (V1 m ρ) c, V1_v11 m ρ c, V1_v12 m ρ c]; rfl
  have e0i : @Eq (Mat 1024 1) ((dat0 (V1 m ρ) c).arrAt 3 cfg0.N) (invNormOf (encOf (m ((c : Thread nD τ).loc main_arg0)) (m ((c : Thread nD τ).loc main_arg2)))) := by
    rw [h0i (V1 m ρ) c, V1_v11 m ρ c, V1_v12 m ρ c]; rfl
  rw [tail_v21 m ρ c, h2 (V5 m ρ) c, V5_v16 m ρ c, V5_v17 m ρ c, V5_v18 m ρ c, h1 (V3 m ρ) c, V3_v13_0 m ρ c, V3_v13_1 m ρ c,
    V3_v15 m ρ c, V3_v14 m ρ c, e0, e0i]
  rfl

end Cert.KernelIdeal.HostReads

end
-- ==== Proof.Laws.lean ====
/-
  The arithmetic that joins the two programs, on the extended reals.

  The kernel multiplies by reciprocals where the reference divides: it scales a column of the input by
  `1 / c` before a product whose other factor the reference divides by `c`, and it scales an inner product by
  `1 / a` and then by `1 / b` where the reference divides it by `a · b`. On the extended reals a quotient by a
  divisor that is not zero is the product with the inverse, products commute and associate without any
  finiteness, and the inverse of a product is the product of the inverses; so the two spellings agree as
  soon as the divisors are not zero. They are not: each is a maximum with a positive constant.
-/
import Idealize.ShloMosaic.PureOps.Ideal
import Idealize.ShloMosaic.PureOps.Ideal.Laws
import Idealize.ShloMosaic.Lib.IdealHost
import Mathlib.Data.EReal.Inv

namespace Cert.Laws

open Idealize.ShloMosaic

/-- The f32 word `0x2B8CBCCC` (the nearest f32 to 1e-12) denotes a positive real. -/
theorem clampBase_pos : (0 : EReal) < Ideal.ofBits .f32 0x2B8CBCCC#32 := by
  simp [Ideal.ofBits, Ideal.ieee, -EReal.coe_mul]

/-- The f32 word `0x322BCC77` (the nearest f32 to 1e-8) denotes a positive real. -/
theorem clampNorm_pos : (0 : EReal) < Ideal.ofBits .f32 0x322BCC77#32 := by
  simp [Ideal.ofBits, Ideal.ieee, -EReal.coe_mul]

/-- The f32 word `0xFF800000` denotes `-∞`. -/
theorem negInf_eq : Ideal.ofBits .f32 0xFF800000#32 = ⊥ := by
  simp [Ideal.ofBits, Ideal.ieee]

/-- A maximum with a positive number is not zero. -/
theorem max_ne_zero {s e : EReal} (he : 0 < e) : max s e ≠ 0 :=
  (lt_of_lt_of_le he (le_max_right s e)).ne'

/-- Scaling one factor of a product by `1 / c` is dividing the other by `c`. -/
theorem scale_swap (a v : EReal) {c : EReal} (hc : c ≠ 0) : (a * Ideal.div 1 c) * v = a * Ideal.div v c := by
  unfold Ideal.div
  rw [if_neg hc, if_neg hc, one_mul, mul_assoc, mul_comm c⁻¹ v]

/-- Scaling by `1 / a` and then by `1 / b` is dividing by `a · b`. -/
theorem scale_pair (g : EReal) {a b : EReal} (ha : a ≠ 0) (hb : b ≠ 0) :
    (g * Ideal.div 1 a) * Ideal.div 1 b = Ideal.div g (a * b) := by
  unfold Ideal.div
  rw [if_neg ha, if_neg hb, if_neg (mul_ne_zero ha hb), one_mul, one_mul, EReal.mul_inv, mul_assoc]

end Cert.Laws
-- ==== Proof.BridgeEnc.lean ====
/-
  The encoded rows are the reference's.

  The reference normalizes the base matrix `B` row by row, `B[k,d] / c k` with `c k = max (√(0 + ∑ d, B[k,d]²)) δ`,
  and multiplies the flattened input by it; the kernel scales column `k` of the input by `1 / c k` and multiplies by
  `B` itself. Term by term `(x[r,k] · (1 / c k)) · B[k,d] = x[r,k] · (B[k,d] / c k)`, because `c k` is not zero.
-/
import proofs.«133027_j51049981280862_1_alg».proof.Proof.HostReads
import proofs.«133027_j51049981280862_1_alg».proof.Proof.Laws
import proofs.«133027_j51049981280862_1_alg».proof.Proof.Gen.ReferenceIdeal.Read
import Idealize.ShloMosaic.Lib.IdealHost

set_option maxRecDepth 16384

noncomputable section

namespace Cert.Bridge

open Cert.KernelIdeal Cert.KernelIdeal.Gen Cert.KernelIdeal.HostReads Cert.ReferenceIdeal.Read Cert.Stages Idealize.ShloMosaic Idealize.ShloMosaic.ValueIdx

variable (x0 : FVec Ideal S1024x1x1024 .f32) (x2 : FVec Ideal S1024x10000 .f32)

/-- The clamped norm of row `k` of the base matrix, `max (√(0 + ∑ d, B[k,d]·B[k,d])) δ`. -/
def baseNorm (k : Fin 1024) : EReal :=
  max (Ideal.sqrt (val_main_call0_v1 (F := Ideal) x2 (ix1 k))) (Ideal.ofBits .f32 0x2B8CBCCC#32)

theorem baseNorm_ne_zero (k : Fin 1024) : baseNorm x2 k ≠ 0 := Cert.Laws.max_ne_zero Cert.Laws.clampBase_pos

/-- The kernel's column scale at `k` is `1 / c k`. -/
theorem scaleRow_apply (k : Fin 1024) : scaleRow x2 (ix1 k) = Ideal.div 1 (baseNorm x2 k) := by
  rw [← Ideal.ofBits_one_f32]
  show Ideal.div (broadcastInDim S1024 ![] bcast_S_S1024 (constant (F := Ideal) S_ .f32 0x3F800000#32) (ix1 k))
      (max (Ideal.sqrt (val_main_call0_v1 (F := Ideal) x2 (ix1 k))) (broadcastInDim S1024 ![] bcast_S_S1024 (constant (F := Ideal) S_ .f32 0x2B8CBCCC#32) (ix1 k))) = _
  rw [broadcastInDim_scalar_apply, broadcastInDim_scalar_apply, constant_apply, constant_apply]
  rfl

/-- The scaled input at `(r, k)`: the flattened input there times `1 / c k`. -/
theorem scaledOf_apply (r k : Fin 1024) :
    scaledOf x0 x2 (ix2 r k) = val_main_v5 (F := Ideal) x0 (ix2 r k) * Ideal.div 1 (baseNorm x2 k) := by
  rw [← scaleRow_apply]
  show val_main_v5 (F := Ideal) x0 (ix2 r k) * broadcastInDim S1024x1024 ![0, 1] bcast_S1x1024_S1024x1024_0_1 (broadcastInDim S1x1024 ![1] bcast_S1024_S1x1024_1 (scaleRow x2)) (ix2 r k) = _
  refine congrArg (val_main_v5 (F := Ideal) x0 (ix2 r k) * ·) ?_
  refine (broadcastInDim_apply _ bcast_S1x1024_S1024x1024_0_1 _ (ix2 r k) (ix2 (0 : Fin 1) k) (fun a => match a with
      | ⟨0, _⟩ => by show 0 = if (1 : Nat) = 1 then 0 else r.val; rw [if_pos rfl]
      | ⟨1, _⟩ => by show k.val = if (1024 : Nat) = 1 then 0 else k.val; rw [if_neg (by decide)])).trans ?_
  exact broadcastInDim_apply _ bcast_S1024_S1x1024_1 _ (ix2 (0 : Fin 1) k) (ix1 k) (fun a => match a with
      | ⟨0, _⟩ => by show k.val = if (1024 : Nat) = 1 then 0 else k.val; rw [if_neg (by decide)])

/-- The reference's clamped row norm, kept as a column, at row `k`. -/
theorem refNorm_apply (k : Fin 1024) : val_main_v2 (F := Ideal) x2 (ix2 k (0 : Fin 1)) = baseNorm x2 k := by
  rw [val_main_v2_apply, val_main_v0_apply, val_main_call0_v2_apply, val_main_v1_apply, val_main_cst_apply]
  have e : idx_main_call0_v2 (ix2 k (0 : Fin 1)) = ix1 k := funext fun a => Fin.ext (by match a with | ⟨0, _⟩ => rfl)
  rw [e]
  rfl

/-- The kernel's encoded rows are the reference's. -/
theorem enc_eq : encOf x0 x2 = val_main_v6 (F := Ideal) x0 x2 := by
  funext i
  obtain ⟨r, q, rfl⟩ : ∃ (r : Fin 1024) (q : Fin 10000), i = ix2 r q := ⟨i 0, i 1, eq_ix2 i⟩
  rw [val_main_v6_apply]
  show ∑ k : Fin 1024, scaledOf x0 x2 (ix2 r k) * x2 (ix2 k q) = _
  refine Finset.sum_congr rfl fun k _ => ?_
  have hl : lidx_main_v6 (ix2 r q) k = ix2 r k := funext fun a => Fin.ext (by match a with | ⟨0, _⟩ => rfl | ⟨1, _⟩ => rfl)
  have hr : ridx_main_v6 (ix2 r q) k = ix2 k q := funext fun a => Fin.ext (by match a with | ⟨0, _⟩ => rfl | ⟨1, _⟩ => rfl)
  have h3 : idx_main_v3 (ix2 k q) = ix2 k (0 : Fin 1) := funext fun a => Fin.ext (by match a with | ⟨0, _⟩ => rfl | ⟨1, _⟩ => rfl)
  rw [hl, hr, val_main_v4_apply, val_main_v3_apply, h3, refNorm_apply, scaledOf_apply]
  exact Cert.Laws.scale_swap _ _ (baseNorm_ne_zero x2 k)

end Cert.Bridge

end
-- ==== Proof.BridgeAttn.lean ====
/-
  The attention weights are the reference's.

  With `E` the encoded rows and `n r = max (√(0 + ∑ d, E[r,d]²)) ε` the clamped norm of row `r`, the reference forms the
  cosine similarities `⟨E[r], E[m]⟩ / (n r · n m)`, weights column `m` by the importance `w m`, and takes the row softmax.
  The kernel multiplies the inner product by `1 / n r` and then by `1 / n m`; the two agree because no clamped norm is
  zero. The softmax is the same expression on both sides: the exponential of the entry less the row maximum (a maximum
  folded from `-∞`, against which one more maximum with `-∞` changes nothing), divided by the row sum of those.
-/
import proofs.«133027_j51049981280862_1_alg».proof.Proof.HostReads
import proofs.«133027_j51049981280862_1_alg».proof.Proof.Laws
import proofs.«133027_j51049981280862_1_alg».proof.Proof.Gen.ReferenceIdeal.Read
import Idealize.ShloMosaic.Lib.IdealHost
import Idealize.ShloMosaic.Lib.ValueLayout

set_option maxRecDepth 16384

noncomputable section

namespace Cert.Bridge

open Cert.KernelIdeal Cert.KernelIdeal.Gen Cert.KernelIdeal.HostReads Cert.ReferenceIdeal.Read Cert.Stages Idealize.ShloMosaic Idealize.ShloMosaic.ValueIdx

variable (x0 : FVec Ideal S1024x1x1024 .f32) (x1 : FVec Ideal S1024 .f32) (x2 : FVec Ideal S1024x10000 .f32)

/-- The clamped norm of row `r` of the reference's encoded rows. -/
def encNorm (r : Fin 1024) : EReal := max (Ideal.sqrt (sumSq (val_main_v6 (F := Ideal) x0 x2) r)) epsW

theorem encNorm_ne_zero (r : Fin 1024) : encNorm x0 x2 r ≠ 0 := Cert.Laws.max_ne_zero Cert.Laws.clampNorm_pos

/-- The reference's sum of squares of row `r` (its first norm). -/
theorem sumSq_ref1 (r : Fin 1024) : val_main_call1_v1 (F := Ideal) x0 x2 (ix1 r) = sumSq (val_main_v6 (F := Ideal) x0 x2) r := by
  rw [val_main_call1_v1_apply, val_main_call1_cst_apply]
  show Ideal.ofBits .f32 0x00000000#32 + _ = _
  rw [Ideal.ofBits_zero_f32, zero_add]
  refine Finset.sum_congr rfl fun d _ => ?_
  have e : idx_main_call1_v1 (ix1 r) d = ix2 r d := funext fun a => Fin.ext (by match a with | ⟨0, _⟩ => rfl | ⟨1, _⟩ => rfl)
  rw [e, val_main_call1_v0_apply]
  rfl

/-- The same for its second norm. -/
theorem sumSq_ref2 (r : Fin 1024) : val_main_call2_v1 (F := Ideal) x0 x2 (ix1 r) = sumSq (val_main_v6 (F := Ideal) x0 x2) r := by
  rw [val_main_call2_v1_apply, val_main_call2_cst_apply]
  show Ideal.ofBits .f32 0x00000000#32 + _ = _
  rw [Ideal.ofBits_zero_f32, zero_add]
  refine Finset.sum_congr rfl fun d _ => ?_
  have e : idx_main_call2_v1 (ix1 r) d = ix2 r d := funext fun a => Fin.ext (by match a with | ⟨0, _⟩ => rfl | ⟨1, _⟩ => rfl)
  rw [e, val_main_call2_v0_apply]
  rfl

theorem qn_apply (r : Fin 1024) : val_main_v9 (F := Ideal) x0 x2 (ix1 r) = encNorm x0 x2 r := by
  rw [val_main_v9_apply, val_main_v7_apply, sumSq_ref1, val_main_v8_apply, val_main_cst_0_apply]
  rfl

theorem mn_apply (r : Fin 1024) : val_main_v12 (F := Ideal) x0 x2 (ix1 r) = encNorm x0 x2 r := by
  rw [val_main_v12_apply, val_main_v10_apply, sumSq_ref2, val_main_v11_apply, val_main_cst_1_apply]
  rfl

/-- The kernel's reciprocal norm of row `r`, as a column. -/
theorem invNorm_col (r : Fin 1024) : invNormOf (val_main_v6 (F := Ideal) x0 x2) (ix2 r (0 : Fin 1)) = Ideal.div 1 (encNorm x0 x2 r) := by
  show Ideal.div (Ideal.ofBits .f32 0x3F800000#32) _ = _
  rw [Ideal.ofBits_one_f32]
  rfl

/-- … and re-laid as a row. -/
theorem invNorm_row (m : Fin 1024) :
    shapeCast S1x1024 (invNormOf (val_main_v6 (F := Ideal) x0 x2)) shapeCasts_S1024x1_S1x1024 (ix2 (0 : Fin 1) m) = Ideal.div 1 (encNorm x0 x2 m) := by
  rw [← invNorm_col]
  exact shapeCast_apply _ shapeCasts_S1024x1_S1x1024 (ix2 (0 : Fin 1) m) (ix2 m (0 : Fin 1)) (by
    rw [Shape.rowMajor_val_two, Shape.rowMajor_val_two]
    show m.val * 1 + 0 = 0 * 1024 + m.val
    omega)

/-- The importance, re-laid as a row. -/
theorem imp_row (m : Fin 1024) : shapeCast S1x1024 x1 shapeCasts_S1024_S1x1024 (ix2 (0 : Fin 1) m) = x1 (ix1 m) :=
  shapeCast_a_1a_apply x1 shapeCasts_S1024_S1x1024 0 m

/-- The reference's Gram matrix. -/
theorem gram_ref (r m : Fin 1024) : val_main_v14 (F := Ideal) x0 x2 (ix2 r m) = gram (val_main_v6 (F := Ideal) x0 x2) r m := by
  rw [val_main_v14_apply]
  refine Finset.sum_congr rfl fun d _ => ?_
  have hl : lidx_main_v14 (ix2 r m) d = ix2 r d := funext fun a => Fin.ext (by match a with | ⟨0, _⟩ => rfl | ⟨1, _⟩ => rfl)
  have hr : ridx_main_v14 (ix2 r m) d = ix2 d m := funext fun a => Fin.ext (by match a with | ⟨0, _⟩ => rfl | ⟨1, _⟩ => rfl)
  have ht : idx_main_v13 (ix2 d m) = ix2 m d := funext fun a => Fin.ext (by match a with | ⟨0, _⟩ => rfl | ⟨1, _⟩ => rfl)
  rw [hl, hr, val_main_v13_apply, ht]

/-- The kernel's weighted similarities are the reference's. -/
theorem weighted_eq :
    weightedOf (val_main_v6 (F := Ideal) x0 x2) (invNormOf (val_main_v6 (F := Ideal) x0 x2))
        (shapeCast S1x1024 (invNormOf (val_main_v6 (F := Ideal) x0 x2)) shapeCasts_S1024x1_S1x1024) (shapeCast S1x1024 x1 shapeCasts_S1024_S1x1024)
      = val_main_v23 (F := Ideal) x0 x1 x2 := by
  funext i
  obtain ⟨r, m, rfl⟩ : ∃ (r m : Fin 1024), i = ix2 r m := ⟨i 0, i 1, eq_ix2 i⟩
  have e17 : idx_main_v17 (ix2 r m) = ix2 r (0 : Fin 1) := funext fun a => Fin.ext (by match a with | ⟨0, _⟩ => rfl | ⟨1, _⟩ => rfl)
  have e15 : idx_main_v15 (ix2 r (0 : Fin 1)) = ix1 r := funext fun a => Fin.ext (by match a with | ⟨0, _⟩ => rfl)
  have e18 : idx_main_v18 (ix2 r m) = ix2 (0 : Fin 1) m := funext fun a => Fin.ext (by match a with | ⟨0, _⟩ => rfl | ⟨1, _⟩ => rfl)
  have e16 : idx_main_v16 (ix2 (0 : Fin 1) m) = ix1 m := funext fun a => Fin.ext (by match a with | ⟨0, _⟩ => rfl)
  have e22 : idx_main_v22 (ix2 r m) = ix2 (0 : Fin 1) m := funext fun a => Fin.ext (by match a with | ⟨0, _⟩ => rfl | ⟨1, _⟩ => rfl)
  have e21 : idx_main_v21 (ix2 (0 : Fin 1) m) = ix1 m := funext fun a => Fin.ext (by match a with | ⟨0, _⟩ => rfl)
  rw [val_main_v23_apply, val_main_v20_apply, val_main_v19_apply, val_main_v17_apply, e17, val_main_v15_apply, e15, qn_apply,
    val_main_v18_apply, e18, val_main_v16_apply, e16, mn_apply, val_main_v22_apply, e22, val_main_v21_apply, e21, gram_ref]
  show ((gram (val_main_v6 (F := Ideal) x0 x2) r m * invNormOf (val_main_v6 (F := Ideal) x0 x2) (ix2 r (0 : Fin 1)))
      * shapeCast S1x1024 (invNormOf (val_main_v6 (F := Ideal) x0 x2)) shapeCasts_S1024x1_S1x1024 (ix2 (0 : Fin 1) m))
      * shapeCast S1x1024 x1 shapeCasts_S1024_S1x1024 (ix2 (0 : Fin 1) m) = _
  rw [invNorm_col, invNorm_row, imp_row, Cert.Laws.scale_pair _ (encNorm_ne_zero x0 x2 r) (encNorm_ne_zero x0 x2 m)]
  rfl

/-- A host maximum over the columns of a matrix, from `-∞`, at row `r`: the fold of `max` over that row. -/
theorem hostRowMax (x : FVec Ideal S1024x1024 .f32) (h' : S1024x1024.ReducesTo [1] S1024) (hu : 0 < S_.numel) (r : Fin 1024) :
    Host.reduce FloatOps.maximumf x (constant (F := Ideal) S_ .f32 0xFF800000#32) h' hu (ix1 r) = rowMax x r := by
  have h : S1024x1024.Reduces [1] S1024 := by decide
  rw [Host.reduce_eq_fold_single FloatOps.maximumf x _ h' h hu]
  have hf : (x ∘ h.lift (ix1 r)) = fun m : Fin 1024 => x (ix2 r m) :=
    funext fun m => congrArg x (funext fun a => Fin.ext (by match a with | ⟨0, _⟩ => rfl | ⟨1, _⟩ => rfl))
  rw [hf]
  rfl

/-- The reference's row maximum: one more maximum with `-∞` changes nothing. -/
theorem rowMax_ref (r : Fin 1024) : val_main_v26 (F := Ideal) x0 x1 x2 (ix1 r) = rowMax (val_main_v23 (F := Ideal) x0 x1 x2) r := by
  rw [val_main_v26_apply, val_main_v25_apply, val_main_cst_3_apply]
  unfold val_main_v24 val_main_cst_2
  rw [hostRowMax]
  show max (Ideal.ofBits .f32 0xFF800000#32) _ = _
  rw [Cert.Laws.negInf_eq]
  exact max_eq_right bot_le

/-- The exponentials are the reference's. -/
theorem exp_eq : expOf (val_main_v23 (F := Ideal) x0 x1 x2) = val_main_v30 (F := Ideal) x0 x1 x2 := by
  funext i
  obtain ⟨r, m, rfl⟩ : ∃ (r m : Fin 1024), i = ix2 r m := ⟨i 0, i 1, eq_ix2 i⟩
  have e28 : idx_main_v28 (ix2 r m) = ix2 r (0 : Fin 1) := funext fun a => Fin.ext (by match a with | ⟨0, _⟩ => rfl | ⟨1, _⟩ => rfl)
  have e27 : idx_main_v27 (ix2 r (0 : Fin 1)) = ix1 r := funext fun a => Fin.ext (by match a with | ⟨0, _⟩ => rfl)
  rw [val_main_v30_apply, val_main_v29_apply, val_main_v28_apply, e28, val_main_v27_apply, e27, rowMax_ref]
  rfl

/-- The softmax is the reference's. -/
theorem attn_eq : attnOf (val_main_v23 (F := Ideal) x0 x1 x2) = val_main_v34 (F := Ideal) x0 x1 x2 := by
  funext i
  obtain ⟨r, m, rfl⟩ : ∃ (r m : Fin 1024), i = ix2 r m := ⟨i 0, i 1, eq_ix2 i⟩
  have e33 : idx_main_v33 (ix2 r m) = ix2 r (0 : Fin 1) := funext fun a => Fin.ext (by match a with | ⟨0, _⟩ => rfl | ⟨1, _⟩ => rfl)
  have e32 : idx_main_v32 (ix2 r (0 : Fin 1)) = ix1 r := funext fun a => Fin.ext (by match a with | ⟨0, _⟩ => rfl)
  rw [val_main_v34_apply, val_main_v33_apply, e33, val_main_v32_apply, e32, val_main_v31_apply, val_main_cst_4_apply]
  unfold attnOf
  rw [exp_eq]
  show Ideal.div _ (∑ m' : Fin 1024, val_main_v30 (F := Ideal) x0 x1 x2 (ix2 r m')) = Ideal.div _ (Ideal.ofBits .f32 0x00000000#32 + _)
  rw [Ideal.ofBits_zero_f32, zero_add]
  refine congrArg (Ideal.div _) (Finset.sum_congr rfl fun m' _ => ?_)
  exact congrArg _ (funext fun a => Fin.ext (by match a with | ⟨0, _⟩ => rfl | ⟨1, _⟩ => rfl))

end Cert.Bridge

end
-- ==== Proof.BridgeOut.lean ====
/-
  The kernel's result is the reference's.

  With the encoded rows and the attention weights identified, what remains is the same on both sides: the
  attention-weighted sum of the encoded rows, the product with the transposed decoder matrix plus the bias row, and
  the sum with the input along a unit axis.
-/
import proofs.«133027_j51049981280862_1_alg».proof.Proof.HostReads
import proofs.«133027_j51049981280862_1_alg».proof.Proof.Laws
import proofs.«133027_j51049981280862_1_alg».proof.Proof.Gen.ReferenceIdeal.Read
import proofs.«133027_j51049981280862_1_alg».proof.Proof.BridgeEnc
import proofs.«133027_j51049981280862_1_alg».proof.Proof.BridgeAttn
import Idealize.ShloMosaic.Lib.IdealHost
import Idealize.ShloMosaic.Lib.ValueLayout

set_option maxRecDepth 16384

noncomputable section

namespace Cert.Bridge

open Cert.KernelIdeal Cert.KernelIdeal.Gen Cert.KernelIdeal.HostReads Cert.ReferenceIdeal.Read Cert.Stages Idealize.ShloMosaic Idealize.ShloMosaic.ValueIdx

variable (x0 : FVec Ideal S1024x1x1024 .f32) (x1 : FVec Ideal S1024 .f32) (x2 x3 : FVec Ideal S1024x10000 .f32) (x4 : FVec Ideal S1024 .f32)

/-- The retrieved rows are the reference's. -/
theorem retrieve_eq :
    retrieveOf (val_main_v6 (F := Ideal) x0 x2) (invNormOf (val_main_v6 (F := Ideal) x0 x2))
        (shapeCast S1x1024 (invNormOf (val_main_v6 (F := Ideal) x0 x2)) shapeCasts_S1024x1_S1x1024) (shapeCast S1x1024 x1 shapeCasts_S1024_S1x1024)
      = val_main_v35 (F := Ideal) x0 x1 x2 := by
  have hA := congrArg attnOf (weighted_eq x0 x1 x2)
  rw [attn_eq] at hA
  funext i
  obtain ⟨r, q, rfl⟩ : ∃ (r : Fin 1024) (q : Fin 10000), i = ix2 r q := ⟨i 0, i 1, eq_ix2 i⟩
  rw [val_main_v35_apply]
  show ∑ m : Fin 1024, attnOf (weightedOf (val_main_v6 (F := Ideal) x0 x2) (invNormOf (val_main_v6 (F := Ideal) x0 x2))
        (shapeCast S1x1024 (invNormOf (val_main_v6 (F := Ideal) x0 x2)) shapeCasts_S1024x1_S1x1024) (shapeCast S1x1024 x1 shapeCasts_S1024_S1x1024)) (ix2 r m)
      * val_main_v6 (F := Ideal) x0 x2 (ix2 m q) = _
  rw [hA]
  refine Finset.sum_congr rfl fun m _ => ?_
  have hl : lidx_main_v35 (ix2 r q) m = ix2 r m := funext fun a => Fin.ext (by match a with | ⟨0, _⟩ => rfl | ⟨1, _⟩ => rfl)
  have hr : ridx_main_v35 (ix2 r q) m = ix2 m q := funext fun a => Fin.ext (by match a with | ⟨0, _⟩ => rfl | ⟨1, _⟩ => rfl)
  rw [hl, hr]

/-- The decoded rows are the reference's. -/
theorem decode_eq :
    decodeOf (val_main_v35 (F := Ideal) x0 x1 x2) (truncf .bf16 x3 bitsLt_bf16_f32) (shapeCast S1x1024 x4 shapeCasts_S1024_S1x1024)
      = val_main_v40 (F := Ideal) x0 x1 x2 x3 x4 := by
  funext i
  obtain ⟨r, k, rfl⟩ : ∃ (r k : Fin 1024), i = ix2 r k := ⟨i 0, i 1, eq_ix2 i⟩
  have e39 : idx_main_v39 (ix2 r k) = ix2 (0 : Fin 1) k := funext fun a => Fin.ext (by match a with | ⟨0, _⟩ => rfl | ⟨1, _⟩ => rfl)
  have e38 : idx_main_v38 (ix2 (0 : Fin 1) k) = ix1 k := funext fun a => Fin.ext (by match a with | ⟨0, _⟩ => rfl)
  rw [val_main_v40_apply, val_main_v37_apply, val_main_v39_apply, e39, val_main_v38_apply, e38]
  show (∑ d : Fin 10000, val_main_v35 (F := Ideal) x0 x1 x2 (ix2 r d) * x3 (ix2 k d)) + shapeCast S1x1024 x4 shapeCasts_S1024_S1x1024 (ix2 (0 : Fin 1) k) = _
  rw [shapeCast_a_1a_apply x4 shapeCasts_S1024_S1x1024 0 k]
  refine congrArg (· + x4 (ix1 k)) (Finset.sum_congr rfl fun d _ => ?_)
  have hl : lidx_main_v37 (ix2 r k) d = ix2 r d := funext fun a => Fin.ext (by match a with | ⟨0, _⟩ => rfl | ⟨1, _⟩ => rfl)
  have hr : ridx_main_v37 (ix2 r k) d = ix2 d k := funext fun a => Fin.ext (by match a with | ⟨0, _⟩ => rfl | ⟨1, _⟩ => rfl)
  have ht : idx_main_v36 (ix2 d k) = ix2 k d := funext fun a => Fin.ext (by match a with | ⟨0, _⟩ => rfl | ⟨1, _⟩ => rfl)
  rw [hl, hr, val_main_v36_apply, ht]

/-- The kernel's result, as a function of the argument arrays, is the reference's. -/
theorem result_ref : resultOf x0 x1 x2 x3 x4 = val_main_v42 (F := Ideal) x0 x1 x2 x3 x4 := by
  unfold resultOf
  rw [enc_eq, retrieve_eq, decode_eq]
  rfl

end Cert.Bridge

end
-- ==== Proof.LibKeepdims.lean ====
/-
  General lemmas: a sum along the last axis of a matrix that keeps the axis as a unit column, read at an index.

  A `keepdims` row reduction of an `[a, b]` matrix passes through three layout steps: the lane sum into `[a]`, the
  cast of `[a]` to the column `[a, 1]`, and the broadcast of the column `[a, 1]` back over `[a, b]`. Each is read
  here at an index written by its coordinates, so that it applies to a printed operation by unification:
  * `laneSum_ab_apply`: at the ideal values the f32 lane sum at row `p` is `Σ k, v (p, k)`;
  * `shapeCast_a_a1_apply`: the column's entry `(p, 0)` is the vector's entry `p`;
  * `broadcastTo_a1_ab_apply`: the broadcast's entry `(p, c)` is the column's entry `(p, 0)`.
-/
import Idealize.ShloMosaic.Lib.Pipeline.Value
import Idealize.ShloMosaic.Lib.ValueIdx
import Idealize.ShloMosaic.PureOps.Ideal.Laws

noncomputable section

open scoped BigOperators

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values an f32 lane sum of an `[a, b]` matrix (a `vector.multi_reduction <add>` over axis 1 into
    `[a]`, from the sum's neutral word) is, at row `p`, the sum over the row's entries. -/
theorem laneSum_ab_apply {a b : ℕ} (v : FVec Ideal ⟨2, ![a, b]⟩ .f32) (acc : BitVec FTy.f32.bits)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx

end
-- ==== Proof.Region0.lean ====
/-
  The encode stage and the reciprocal row norms, read off the first kernel region.

  The region runs over eight grid points.  Point `t` takes rows `128·t … 128·t + 127` of the input `x`
  (a `1024 × 1024` matrix) and the whole projection `y` (`1024 × 10000`).  It writes rows `128·t …` of two
  outputs: the product `e[r, d] = ∑ k, x[r, k] · y[k, d]`, and the column `1 / max (√(∑ d, e[r, d]²)) ε` of
  clamped reciprocal norms of the product's rows (the sum of squares runs over the lanes of the block's
  row and is kept as a unit column).  The eight row blocks tile the `1024` rows of either output, so the
  two output arrays are `matProd x y` and `invNormOf (matProd x y)` at every index.
-/
import proofs.«133027_j51049981280862_1_alg».proof.Proof.Gen.KernelIdeal.Frame
import proofs.«133027_j51049981280862_1_alg».proof.Proof.Stages
import proofs.«133027_j51049981280862_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

/-! ## The blocks' values at an index -/

theorem lhs_axis0 (i : S128x10000.Idx) (k : dot_S128x1024_S1024x10000_S128x10000_1_0_0_1_n_n.contr.Idx) :
    (dot_S128x1024_S1024x10000_S128x10000_1_0_0_1_n_n.lhsIdx i k 0).val = (i 0).val := by
  unfold DotDims.lhsIdx
  rw [dif_neg (show ¬(0 : Fin S128x1024.rank) ∈ dot_S128x1024_S1024x10000_S128x10000_1_0_0_1_n_n.lhsBatch by decide), dif_pos (show (0 : Fin S128x1024.rank) ∈ dot_S128x1024_S1024x10000_S128x10000_1_0_0_1_n_n.lhsNonContracting by decide)]
  rfl
theorem lhs_axis1 (i : S128x10000.Idx) (k : dot_S128x1024_S1024x10000_S128x10000_1_0_0_1_n_n.contr.Idx) :
    (dot_S128x1024_S1024x10000_S128x10000_1_0_0_1_n_n.lhsIdx i k 1).val = (k ⟨0, by decide⟩).val :=
  dot_S128x1024_S1024x10000_S128x10000_1_0_0_1_n_n.lhsIdx_val_of_single rfl i k
theorem rhs_axis0 (i : S128x10000.Idx) (k : dot_S128x1024_S1024x10000_S128x10000_1_0_0_1_n_n.contr.Idx) :
    (dot_S128x1024_S1024x10000_S128x10000_1_0_0_1_n_n.rhsIdx i k 0).val = (k ⟨0, by decide⟩).val :=
  dot_S128x1024_S1024x10000_S128x10000_1_0_0_1_n_n.rhsIdx_val_of_single rfl i k
theorem rhs_axis1 (i : S128x10000.Idx) (k : dot_S128x1024_S1024x10000_S128x10000_1_0_0_1_n_n.contr.Idx) :
    (dot_S128x1024_S1024x10000_S128x10000_1_0_0_1_n_n.rhsIdx i k 1).val = (i 1).val := by
  unfold DotDims.rhsIdx
  rw [dif_neg (show ¬(1 : Fin S1024x10000.rank) ∈ dot_S128x1024_S1024x10000_S128x10000_1_0_0_1_n_n.rhsBatch by decide), dif_pos (show (1 : Fin S1024x10000.rank) ∈ dot_S128x1024_S1024x10000_S128x10000_1_0_0_1_n_n.rhsNonContracting by decide)]
  rfl

/-- Entry `(p, d)` of the product into a zero accumulator is `∑ k, x[p, k] · y[k, d]`. -/
theorem matmul_apply (x : FVec Ideal S128x1024 .bf16) (y : FVec Ideal S1024x10000 .bf16) (p : Fin 128) (d : Fin 10000) :
    matmul dot_S128x1024_S1024x10000_S128x10000_1_0_0_1_n_n none x y (constant (F := Ideal) S128x10000 .f32 0x00000000#32) (ix2 p d)
      = ∑ k : Fin 1024, x (ix2 p k) * y (ix2 k d) := by
  refine (Ideal.matmul_constant_zero_apply dot_S128x1024_S1024x10000_S128x10000_1_0_0_1_n_n none x y (ix2 p d)).trans ?_
  rw [← Equiv.sum_comp (contrEquiv1 dot_S128x1024_S1024x10000_S128x10000_1_0_0_1_n_n 1024 rfl rfl).symm]
  refine Finset.sum_congr rfl fun k _ => ?_
  have hk := contrEquiv1_symm_val dot_S128x1024_S1024x10000_S128x10000_1_0_0_1_n_n 1024 rfl rfl k
  have el : dot_S128x1024_S1024x10000_S128x10000_1_0_0_1_n_n.lhsIdx (ix2 p d) ((contrEquiv1 dot_S128x1024_S1024x10000_S128x10000_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S128x1024_S1024x10000_S128x10000_1_0_0_1_n_n.rhsIdx (ix2 p d) ((contrEquiv1 dot_S128x1024_S1024x10000_S128x10000_1_0_0_1_n_n 1024 rfl rfl).symm k) = ix2 k d := funext fun a => Fin.ext (by
    match a with
    | ⟨0, _⟩ => exact (rhs_axis0 _ _).trans hk
    | ⟨1, _⟩ => exact rhs_axis1 _ _)
  rw [el, er]

/-- The product payload at `(p, d)`. -/
theorem pay1_apply (x0 : FVec Ideal S128x1024 .bf16) (x1 : FVec Ideal S1024x10000 .bf16) (p : Fin 128) (d : Fin 10000) :
    k0_pay1 (F := Ideal) x0 x1 (ix2 p d) = ∑ k : Fin 1024, x0 (ix2 p k) * x1 (ix2 k d) := by
  unfold k0_pay1
  rw [shapeCast_self, shapeCast_self]
  exact matmul_apply x0 x1 p d

/-- The stored product (the same values in the narrower format) at `(p, d)`. -/
theorem pay3_apply (x0 : FVec Ideal S128x1024 .bf16) (x1 : FVec Ideal S1024x10000 .bf16) (p : Fin 128) (d : Fin 10000) :
    k0_pay3 (F := Ideal) x0 x1 (ix2 p d) = ∑ k : Fin 1024, x0 (ix2 p k) * x1 (ix2 k d) := by
  unfold k0_pay3
  exact (truncf_apply (ψ := .bf16) (k0_pay1 (F := Ideal) x0 x1) bitsLt_bf16_f32 (ix2 p d)).trans (pay1_apply x0 x1 p d)

/-- The reciprocal-norm payload at `(p, 0)`: one over the clamped root of the sum of squares of row `p`
    of the product. -/
theorem pay2_apply (x0 : FVec Ideal S128x1024 .bf16) (x1 : FVec Ideal S1024x10000 .bf16) (p : Fin 128) (u : Fin 1) :
    k0_pay2 (F := Ideal) x0 x1 (ix2 p u)
      = Ideal.div Cert.Stages.oneW (max (Ideal.sqrt (∑ d : Fin 10000, k0_pay1 (F := Ideal) x0 x1 (ix2 p d) * k0_pay1 (F := Ideal) x0 x1 (ix2 p d))) Cert.Stages.epsW) := by
  unfold k0_pay2
  show Ideal.div Cert.Stages.oneW (max (Ideal.sqrt (shapeCast S128x1 (multiReduction .add [1] S128 (mulf (k0_pay1 (F := Ideal) x0 x1) (k0_pay1 (F := Ideal) x0 x1)) 0x00000000#32 reduces_S128x10000_S128 (.inl rfl) rfl) shapeCasts_S128_S128x1 (ix2 p u))) Cert.Stages.epsW) = _
  refine congrArg (fun z => Ideal.div Cert.Stages.oneW (max (Ideal.sqrt z) Cert.Stages.epsW)) ?_
  refine (shapeCast_a_a1_apply _ shapeCasts_S128_S128x1 p u).trans ?_
  exact laneSum_ab_apply (mulf (k0_pay1 (F := Ideal) x0 x1) (k0_pay1 (F := Ideal) x0 x1)) 0x00000000#32 reduces_S128x10000_S128 (.inl rfl) rfl p

/-- The stored product at an index `j` of the block is the matrix product at an index `i` of the array, as
    soon as row `j 0` of the first block is row `i 0` of `x` and column `j 1` of the second block is column
    `i 1` of `y`. -/
theorem pay3_eq_matProd (x0 : FVec Ideal S128x1024 .bf16) (x1 : FVec Ideal S1024x10000 .bf16)
    (x : Cert.Stages.Mat 1024 1024) (y : Cert.Stages.Mat 1024 10000) (j : S128x10000.Idx) (i : S1024x10000.Idx)
    (e0 : ∀ k : Fin 1024, x0 (ix2 (j 0) k) = x (ix2 (i 0) k))
    (e1 : ∀ k : Fin 1024, x1 (ix2 k (j 1)) = y (ix2 k (i 1))) :
    k0_pay3 (F := Ideal) x0 x1 j = Cert.Stages.matProd x y i := by
  obtain ⟨p, d, rfl⟩ : ∃ (p : Fin 128) (d : Fin 10000), j = ix2 p d := ⟨j 0, j 1, eq_ix2 j⟩
  refine (pay3_apply x0 x1 p d).trans ?_
  unfold Cert.Stages.matProd
  exact Finset.sum_congr rfl fun k _ => congrArg₂ (· * ·) (e0 k) (e1 k)

/-- The reciprocal-norm payload at an index `j` of the block is the clamped reciprocal norm of row `i 0` of
    the matrix product, as soon as row `j 0` of the first block is row `i 0` of `x` and the second block is
    the whole of `y`. -/
theorem pay2_eq_invNorm (x0 : FVec Ideal S128x1024 .bf16) (x1 : FVec Ideal S1024x10000 .bf16)
    (x : Cert.Stages.Mat 1024 1024) (y : Cert.Stages.Mat 1024 10000) (j : S128x1.Idx) (i : S1024x1.Idx)
    (e0 : ∀ k : Fin 1024, x0 (ix2 (j 0) k) = x (ix2 (i 0) k))
    (e1 : ∀ (k : Fin 1024) (d : Fin 10000), x1 (ix2 k d) = y (ix2 k d)) :
    k0_pay2 (F := Ideal) x0 x1 j = Cert.Stages.invNormOf (Cert.Stages.matProd x y) i := by
  obtain ⟨p, u, rfl⟩ : ∃ (p : Fin 128) (u : Fin 1), j = ix2 p u := ⟨j 0, j 1, eq_ix2 j⟩
  refine (pay2_apply x0 x1 p u).trans ?_
  unfold Cert.Stages.invNormOf Cert.Stages.sumSq
  have hP : ∀ d : Fin 10000, k0_pay1 (F := Ideal) x0 x1 (ix2 p d) = Cert.Stages.matProd x y (ix2 (i 0) d) := fun d => by
    refine (pay1_apply x0 x1 p d).trans ?_
    unfold Cert.Stages.matProd
    exact Finset.sum_congr rfl fun k _ => congrArg₂ (· * ·) (e0 k) (e1 k d)
  refine congrArg (fun z => Ideal.div Cert.Stages.oneW (max (Ideal.sqrt z) Cert.Stages.epsW)) ?_
  exact Finset.sum_congr rfl fun d _ => congrArg₂ (· * ·) (hP d) (hP d)

/-! ## From the blocks to the arrays -/

theorem hz : (![0, 0] : Fin 2 → Nat) = fun _ => 0 := funext fun a => by fin_cases a <;> rfl

/-- The block indices over the eight grid points: the row block of `x` and of both outputs is the point's
    number; every other block index is `0`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point `t` writes back to the product's array is block `t` of the matrix product of the arrays the
    region finds. -/
theorem flushed_enc_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (Cert.Stages.matProd (V c main_v11) (V c main_v12)) := by
  show (cfg0.win 2).cut (grid0.coords t) ((dat0 V c).after 2 t) = _
  rw [after0_2]
  unfold out0_2
  rw [View.canon_unit_zero hz]
  simp only [View.ld_unit_zero (S := S128x1024) hz, View.ld_unit_zero (S := S1024x10000) hz]
  obtain ⟨f00, f01, f10, f11, f20, f21, -, -⟩ := idx_facts t
  funext j
  show k0_pay3 (F := Ideal) (iblk0 V c 0 t) (iblk0 V c 1 t) j
    = Cert.Stages.matProd (V c main_v11) (V c main_v12) (((cfg0.win 2).blk t).view.emb j)
  refine pay3_eq_matProd (iblk0 V c 0 t) (iblk0 V c 1 t) (V c main_v11) (V c main_v12) j
    (((cfg0.win 2).blk t).view.emb j) (fun k => ?_) (fun k => ?_)
  · show V c main_v11 (((cfg0.win 0).blk t).view.emb (ix2 (j 0) k)) = V c main_v11 (ix2 ((((cfg0.win 2).blk t).view.emb j) 0) k)
    refine congrArg (V c main_v11) (funext fun a => Fin.ext ?_)
    match a with
    | ⟨0, _⟩ => show win0_0.index t (0 : Fin 2) * 128 + 1 * (j 0).val = win0_2.index t (0 : Fin 2) * 128 + 1 * (j 0).val; rw [f00, f20]
    | ⟨1, _⟩ => show win0_0.index t (1 : Fin 2) * 1024 + 1 * k.val = k.val; rw [f01]; omega
  · show V c main_v12 (((cfg0.win 1).blk t).view.emb (ix2 k (j 1))) = V c main_v12 (ix2 k ((((cfg0.win 2).blk t).view.emb j) 1))
    refine congrArg (V c main_v12) (funext fun a => Fin.ext ?_)
    match a with
    | ⟨0, _⟩ => show win0_1.index t (0 : Fin 2) * 1024 + 1 * k.val = k.val; rw [f10]; omega
    | ⟨1, _⟩ => show win0_1.index t (1 : Fin 2) * 10000 + 1 * (j 1).val = win0_2.index t (1 : Fin 2) * 10000 + 1 * (j 1).val; rw [f11, f21]

/-- What point `t` writes back to the norms' array is block `t` of the clamped reciprocal row norms of the
    matrix product of the arrays the region finds. -/
theorem flushed_inv_eq (V : (c : Dev nD) → (b : Ref sig .tc) → Buf (Elt Ideal) ((c : Thread nD τ).loc b)) (c : Dev nD) (t : Fin cfg0.N) :
    (dat0 (F := Ideal) V c).flushed 3 t
      = ((cfg0.win 3).blk t).view.read (Elt Ideal) (Cert.Stages.invNormOf (Cert.Stages.matProd (V c main_v11) (V c main_v12))) := by
  show (cfg0.win 3).cut (grid0.coords t) ((dat0 V c).after 3 t) = _
  rw [after0_3]
  unfold out0_3
  rw [View.canon_unit_zero hz]
  simp only [View.ld_unit_zero (S := S128x1024) hz, View.ld_unit_zero (S := S1024x10000) hz]
  obtain ⟨f00, f01, f10, f11, -, -, f30, f31⟩ := idx_facts t
  funext j
  show k0_pay2 (F := Ideal) (iblk0 V c 0 t) (iblk0 V c 1 t) j
    = Cert.Stages.invNormOf (Cert.Stages.matProd (V c main_v11) (V c main_v12)) (((cfg0.win 3).blk t).view.emb j)
  refine pay2_eq_invNorm (iblk0 V c 0 t) (iblk0 V c 1 t) (V c main_v11) (V c main_v12) j
    (((cfg0.win 3).blk t).view.emb j) (fun k => ?_) (fun k d => ?_)
  · show V c main_v11 (((cfg0.win 0).blk t).view.emb (ix2 (j 0) k)) = V c main_v11 (ix2 ((((cfg0.win 3).blk t).view.emb j) 0) k)
    refine congrArg (V c main_v11) (funext fun a => Fin.ext ?_)
    match a with
    | ⟨0, _⟩ => show win0_0.index t (0 : Fin 2) * 128 + 1 * (j 0).val = win0_3.index t (0 : Fin 2) * 128 + 1 * (j 0).val; rw [f00, f30]
    | ⟨1, _⟩ => show win0_0.index t (1 : Fin 2) * 1024 + 1 * k.val = k.val; rw [f01]; omega
  · show V c main_v12 (((cfg0.win 1).blk t).view.emb (ix2 k d)) = V c main_v12 (ix2 k d)
    refine congrArg (V c main_v12) (funext fun a => Fin.ext ?_)
    match a with
    | ⟨0, _⟩ => show win0_1.index t (0 : Fin 2) * 1024 + 1 * k.val = k.val; rw [f10]; omega
    | ⟨1, _⟩ => show win0_1.index t (1 : Fin 2) * 10000 + 1 * d.val = d.val; rw [f11]; omega

/-- An index of the product's array is in point `t`'s block iff each coordinate is in the block's range. -/
theorem mem_blk_enc (t : Fin cfg0.N) (i : S1024x10000.Idx) :
    i ∈ ((cfg0.win 2).blk t).view.set ↔ ∀ a : Fin 2, win0_2.index t a * S128x10000.size a ≤ (i a).val ∧ (i a).val < win0_2.index t a * S128x10000.size a + S128x10000.size a := by
  show i ∈ ((View.whole main_v13_0).slice (win0_2.rect t)).set ↔ _
  rw [View.set_slice_whole, Rect.mem_set_unit]
  exact Iff.rfl

/-- An index of the norms' array is in point `t`'s block iff each coordinate is in the block's range. -/
theorem mem_blk_inv (t : Fin cfg0.N) (i : S1024x1.Idx) :
    i ∈ ((cfg0.win 3).blk t).view.set ↔ ∀ a : Fin 2, win0_3.index t a * S128x1.size a ≤ (i a).val ∧ (i a).val < win0_3.index t a * S128x1.size a + S128x1.size a := by
  show i ∈ ((View.whole main_v13_1).slice (win0_3.rect t)).set ↔ _
  rw [View.set_slice_whole, Rect.mem_set_unit]
  exact Iff.rfl

/-- Row `r` of the product lies in the block of point `r / 128`. -/
theorem cover_enc (i : S1024x10000.Idx) : ∃ t : Fin cfg0.N, (cfg0.win 2).flush t = true ∧ i ∈ ((cfg0.win 2).blk t).view.set := by
  have hi0 : (i 0).val < 1024 := (i 0).isLt
  have hi1 : (i 1).val < 10000 := (i 1).isLt
  have hN : cfg0.N = 8 := N_0
  let t : Fin cfg0.N := ⟨(i 0).val / 128, by rw [hN]; omega⟩
  obtain ⟨-, -, -, -, f20, f21, -, -⟩ := idx_facts t
  have ht : t.val = (i 0).val / 128 := rfl
  refine ⟨t, flush0_2 t, ?_⟩
  rw [mem_blk_enc]
  intro a
  match a with
  | ⟨0, _⟩ => show win0_2.index t (0 : Fin 2) * 128 ≤ (i 0).val ∧ (i 0).val < win0_2.index t (0 : Fin 2) * 128 + 128; rw [f20, ht]; omega
  | ⟨1, _⟩ => show win0_2.index t (1 : Fin 2) * 10000 ≤ (i 1).val ∧ (i 1).val < win0_2.index t (1 : Fin 2) * 10000 + 10000; rw [f21]; omega

/-- Row `r` of the norms lies in the block of point `r / 128`. -/
theorem cover_inv (i : S1024x1.Idx) : ∃ t : Fin cfg0.N, (cfg0.win 3).flush t = true ∧ i ∈ ((cfg0.win 3).blk t).view.set := by
  have hi0 : (i 0).val < 1024 := (i 0).isLt
  have hi1 : (i 1).val < 1 := (i 1).isLt
  have hN : cfg0.N = 8 := N_0
  let t : Fin cfg0.N := ⟨(i 0).val / 128, by rw [hN]; omega⟩
  obtain ⟨-, -, -, -, -, -, f30, f31⟩ := idx_facts t
  have ht : t.val = (i 0).val / 128 := rfl
  refine ⟨t, flush0_3 t, ?_⟩
  rw [mem_blk_inv]
  intro a
  match a with
  | ⟨0, _⟩ => show win0_3.index t (0 : Fin 2) * 128 ≤ (i 0).val ∧ (i 0).val < win0_3.index t (0 : Fin 2) * 128 + 128; rw [f30, ht]; omega
  | ⟨1, _⟩ => show win0_3.index t (1 : Fin 2) * 1 ≤ (i 1).val ∧ (i 1).val < win0_3.index t (1 : Fin 2) * 1 + 1; rw [f31]; omega

/-- The product's array after the region is the matrix product of the arrays the region finds. -/
theorem final0_enc (V : (c : Dev nD) → (b : Ref sig .tc) → Buf (Elt Ideal) ((c : Thread nD τ).loc b)) (c : Dev nD) :
    (Gen.dat0 (F := Ideal) V c).arrAt 2 cfg0.N = Cert.Stages.matProd (V c main_v11) (V c main_v12) :=
  (dat0 (F := Ideal) V c).arrAt_eq_of_cover 2 (Cert.Stages.matProd (V c main_v11) (V c main_v12))
    (fun t _ => flushed_enc_eq V c t) cover_enc

/-- The norms' array after the region is the column of clamped reciprocal row norms of that product. -/
theorem final0_inv (V : (c : Dev nD) → (b : Ref sig .tc) → Buf (Elt Ideal) ((c : Thread nD τ).loc b)) (c : Dev nD) :
    (Gen.dat0 (F := Ideal) V c).arrAt 3 cfg0.N = Cert.Stages.invNormOf (Cert.Stages.matProd (V c main_v11) (V c main_v12)) :=
  (dat0 (F := Ideal) V c).arrAt_eq_of_cover 3 (Cert.Stages.invNormOf (Cert.Stages.matProd (V c main_v11) (V c main_v12)))
    (fun t _ => flushed_inv_eq V c t) cover_inv

end Cert.KernelIdeal.Region0

end
-- ==== Proof.Region1Pay.lean ====
/-
  The value the retrieve kernel stores at one grid point, read entry by entry.

  At a grid point the body holds a block `xb` of 128 rows of the encoded matrix, the whole encoded
  matrix `e`, the block `cb` of the reciprocal norms of the same 128 rows (a column), and the two
  rows `ir` (reciprocal norms) and `w` (importance). With `p : Fin 128`, `m : Fin 1024`,
  `q : Fin 10000` it forms the scores
    s[p,m] = (((∑ d, xb[p,d] · e[m,d]) · cb[p,0]) · ir[0,m]) · w[0,m],
  their row softmax  a[p,m] = exp (s[p,m] − max s[p,·]) / ∑ m', exp (s[p,m'] − max s[p,·]),
  and stores  out[p,q] = ∑ m, a[p,m] · e[m,q].
  When row `p` of `xb` and of `cb` is row `r` of the whole arrays this is row `r` of `retrieveOf`.
-/
import proofs.«133027_j51049981280862_1_alg».proof.Proof.Gen.KernelIdeal.Skeleton
import proofs.«133027_j51049981280862_1_alg».proof.Proof.LibKeepdims
import proofs.«133027_j51049981280862_1_alg».proof.Proof.Stages
import Idealize.ShloMosaic.Lib.ValueLayout
import Idealize.ShloMosaic.PureOps.Ideal.Laws

noncomputable section

open scoped BigOperators

namespace Cert.KernelIdeal.Region1

open Idealize.ShloMosaic Idealize.ShloMosaic.ValueIdx
open Cert.KernelIdeal Cert.KernelIdeal.Gen

/-! ## The two contractions at an index -/

/-- The contraction of the second axes of both operands (rows against rows). -/
abbrev dRows : DotDims S128x10000 S1024x10000 S128x1024 := dot_S128x10000_S1024x10000_S128x1024_1_1_0_0_n_n
/-- The ordinary matrix product. -/
abbrev dProd : DotDims S128x1024 S1024x10000 S128x10000 := dot_S128x1024_S1024x10000_S128x10000_1_0_0_1_n_n

theorem dRows_lhs0 (j : S128x1024.Idx) (k : dRows.contr.Idx) : (dRows.lhsIdx j k 0).val = (j 0).val := by
  unfold DotDims.lhsIdx
  rw [dif_neg (show ¬(0 : Fin S128x10000.rank) ∈ dRows.lhsBatch by decide), dif_pos (show (0 : Fin S128x10000.rank) ∈ dRows.lhsNonContracting by decide)]
  rfl
theorem dRows_lhs1 (j : S128x1024.Idx) (k : dRows.contr.Idx) : (dRows.lhsIdx j k 1).val = (k ⟨0, by decide⟩).val :=
  dRows.lhsIdx_val_of_single rfl j k
theorem dRows_rhs0 (j : S128x1024.Idx) (k : dRows.contr.Idx) : (dRows.rhsIdx j k 0).val = (j 1).val := by
  unfold DotDims.rhsIdx
  rw [dif_neg (show ¬(0 : Fin S1024x10000.rank) ∈ dRows.rhsBatch by decide), dif_pos (show (0 : Fin S1024x10000.rank) ∈ dRows.rhsNonContracting by decide)]
  rfl
theorem dRows_rhs1 (j : S128x1024.Idx) (k : dRows.contr.Idx) : (dRows.rhsIdx j k 1).val = (k ⟨0, by decide⟩).val :=
  dRows.rhsIdx_val_of_single rfl j k

/-- Rows against rows: entry `(p, m)` is the inner product of row `p` of the left operand and row `m` of the right. -/
theorem rows_apply (x : FVec Ideal S128x10000 .bf16) (y : FVec Ideal S1024x10000 .bf16) (p : Fin 128) (m : Fin 1024) :
    matmul dRows none x y (constant (F := Ideal) S128x1024 .f32 0x00000000#32) (ix2 p m)
      = ∑ d : Fin 10000, x (ix2 p d) * y (ix2 m d) := by
  refine (Ideal.matmul_constant_zero_apply dRows none x y (ix2 p m)).trans ?_
  rw [← Equiv.sum_comp (contrEquiv1 dRows 10000 rfl rfl).symm]
  refine Finset.sum_congr rfl fun k _ => ?_
  have hk := contrEquiv1_symm_val dRows 10000 rfl rfl k
  have el : dRows.lhsIdx (ix2 p m) ((contrEquiv1 dRows 10000 rfl rfl).symm k) = ix2 p k := funext fun a => Fin.ext (by
    match a with
    | ⟨0, _⟩ => exact dRows_lhs0 _ _
    | ⟨1, _⟩ => exact (dRows_lhs1 _ _).trans hk)
  have er : dRows.rhsIdx (ix2 p m) ((contrEquiv1 dRows 10000 rfl rfl).symm k) = ix2 m k := funext fun a => Fin.ext (by
    match a with
    | ⟨0, _⟩ => exact dRows_rhs0 _ _
    | ⟨1, _⟩ => exact (dRows_rhs1 _ _).trans hk)
  rw [el, er]

theorem dProd_lhs0 (j : S128x10000.Idx) (k : dProd.contr.Idx) : (dProd.lhsIdx j k 0).val = (j 0).val := by
  unfold DotDims.lhsIdx
  rw [dif_neg (show ¬(0 : Fin S128x1024.rank) ∈ dProd.lhsBatch by decide), dif_pos (show (0 : Fin S128x1024.rank) ∈ dProd.lhsNonContracting by decide)]
  rfl
theorem dProd_lhs1 (j : S128x10000.Idx) (k : dProd.contr.Idx) : (dProd.lhsIdx j k 1).val = (k ⟨0, by decide⟩).val :=
  dProd.lhsIdx_val_of_single rfl j k
theorem dProd_rhs0 (j : S128x10000.Idx) (k : dProd.contr.Idx) : (dProd.rhsIdx j k 0).val = (k ⟨0, by decide⟩).val :=
  dProd.rhsIdx_val_of_single rfl j k
theorem dProd_rhs1 (j : S128x10000.Idx) (k : dProd.contr.Idx) : (dProd.rhsIdx j k 1).val = (j 1).val := by
  unfold DotDims.rhsIdx
  rw [dif_neg (show ¬(1 : Fin S1024x10000.rank) ∈ dProd.rhsBatch by decide), dif_pos (show (1 : Fin S1024x10000.rank) ∈ dProd.rhsNonContracting by decide)]
  rfl

/-- The matrix product: entry `(p, q)` is `∑ m, a[p,m] · y[m,q]`. -/
theorem prod_apply (a : FVec Ideal S128x1024 .bf16) (y : FVec Ideal S1024x10000 .bf16) (p : Fin 128) (q : Fin 10000) :
    matmul dProd none a y (constant (F := Ideal) S128x10000 .f32 0x00000000#32) (ix2 p q)
      = ∑ m : Fin 1024, a (ix2 p m) * y (ix2 m q) := by
  refine (Ideal.matmul_constant_zero_apply dProd none a y (ix2 p q)).trans ?_
  rw [← Equiv.sum_comp (contrEquiv1 dProd 1024 rfl rfl).symm]
  refine Finset.sum_congr rfl fun k _ => ?_
  have hk := contrEquiv1_symm_val dProd 1024 rfl rfl k
  have el : dProd.lhsIdx (ix2 p q) ((contrEquiv1 dProd 1024 rfl rfl).symm k) = ix2 p k := funext fun a => Fin.ext (by
    match a with
    | ⟨0, _⟩ => exact dProd_lhs0 _ _
    | ⟨1, _⟩ => exact (dProd_lhs1 _ _).trans hk)
  have er : dProd.rhsIdx (ix2 p q) ((contrEquiv1 dProd 1024 rfl rfl).symm k) = ix2 k q := funext fun a => Fin.ext (by
    match a with
    | ⟨0, _⟩ => exact (dProd_rhs0 _ _).trans hk
    | ⟨1, _⟩ => exact dProd_rhs1 _ _)
  rw [el, er]

/-! ## The row maximum at an index -/

/-- An f32 lane maximum of an `[a, b]` matrix (a `maximumf` reduction over axis 1 into `[a]`, from the
    maximum's neutral word) is, at row `p`, the fold of `max` over the row's entries from that word's value. -/
theorem laneMax_ab_apply {a b : ℕ} (v : FVec Ideal ⟨2, ![a, b]⟩ .f32) (acc : BitVec FTy.f32.bits)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ v acc h hφ hacc (ix1 p)
      = (Finset.univ : Finset (Fin b)).fold max (Ideal.ofBits .f32 acc) (fun k => v (ix2 p k)) :=
  (Ideal.multiReduction_maximumf_single v acc h hφ hacc (ix1 p)).trans
    (Finset.fold_congr fun k _ => congrArg v (funext fun ax => Fin.ext (by
      match ax with
      | ⟨0, _⟩ => rfl
      | ⟨1, _⟩ => rfl)))

/-! ## The body's stages as vector functions, and each at an index -/

/-- The scores `s[p,m]` as a function of the row index `m`. -/
def scoreRow (xb : FVec Ideal S128x10000 .bf16) (e : FVec Ideal S1024x10000 .bf16) (cb : FVec Ideal S128x1 .f32)
    (ir w : FVec Ideal S1x1024 .f32) (p : Fin 128) (m : Fin 1024) : EReal :=
  (((∑ d : Fin 10000, xb (ix2 p d) * e (ix2 m d)) * cb (ix2 p (0 : Fin 1))) * ir (ix2 (0 : Fin 1) m)) * w (ix2 (0 : Fin 1) m)

/-- The softmax weight of entry `m` of a row `s`. -/
def softRow (s : Fin 1024 → EReal) (m : Fin 1024) : EReal :=
  Ideal.div (Ideal.exp (s m - (Finset.univ : Finset (Fin 1024)).fold max Cert.Stages.negInfW s))
    (∑ m' : Fin 1024, Ideal.exp (s m' - (Finset.univ : Finset (Fin 1024)).fold max Cert.Stages.negInfW s))

/-- The score matrix of the block, as the body computes it. -/
def scoreVec (xb : FVec Ideal S128x10000 .bf16) (e : FVec Ideal S1024x10000 .bf16) (cb : FVec Ideal S128x1 .f32)
    (ir w : FVec Ideal S1x1024 .f32) : FVec Ideal S128x1024 .f32 :=
  mulf (mulf (mulf
      (matmul dRows none (shapeCast S128x10000 xb shapeCasts_S128x10000_S128x10000) (shapeCast S1024x10000 e shapeCasts_S1024x10000_S1024x10000)
        (constant S128x1024 .f32 0x00000000#32))
      (broadcastTo S128x1024 (shapeCast S128x1 cb shapeCasts_S128x1_S128x1) broadcasts_S128x1_S128x1024))
      (broadcastTo S128x1024 (shapeCast S1x1024 ir shapeCasts_S1x1024_S1x1024) broadcasts_S1x1024_S128x1024))
      (broadcastTo S128x1024 (shapeCast S1x1024 w shapeCasts_S1x1024_S1x1024) broadcasts_S1x1024_S128x1024)

theorem scoreVec_apply (xb : FVec Ideal S128x10000 .bf16) (e : FVec Ideal S1024x10000 .bf16) (cb : FVec Ideal S128x1 .f32)
    (ir w : FVec Ideal S1x1024 .f32) (p : Fin 128) (m : Fin 1024) :
    scoreVec xb e cb ir w (ix2 p m) = scoreRow xb e cb ir w p m := by
  unfold scoreVec scoreRow
  rw [mulf_apply, mulf_apply, mulf_apply, shapeCast_self, shapeCast_self, shapeCast_self, shapeCast_self, shapeCast_self,
    rows_apply, broadcastTo_a1_ab_apply, broadcastTo_1b_ab_apply, broadcastTo_1b_ab_apply]

/-- The exponentials of the scores less their row maximum, as the body computes them. -/
def expVec (s : FVec Ideal S128x1024 .f32) : FVec Ideal S128x1024 .f32 :=
  exp (subf s (broadcastTo S128x1024 (shapeCast S128x1
    (multiReduction .maximumf [1] S128 s 0xFF800000#32 reduces_S128x1024_S128 (.inl rfl) rfl) shapeCasts_S128_S128x1) broadcasts_S128x1_S128x1024))

theorem expVec_apply (s : FVec Ideal S128x1024 .f32) (p : Fin 128) (m : Fin 1024) :
    expVec s (ix2 p m)
      = Ideal.exp (s (ix2 p m) - (Finset.univ : Finset (Fin 1024)).fold max Cert.Stages.negInfW (fun k => s (ix2 p k))) := by
  unfold expVec
  exact congrArg (fun z => Ideal.exp (s (ix2 p m) - z))
    ((broadcastTo_a1_ab_apply _ _ p m).trans ((shapeCast_a_a1_apply _ _ p 0).trans (laneMax_ab_apply s _ _ _ _ p)))

/-- The exponentials divided by their row sums, as the body computes them. -/
def attnVec (x : FVec Ideal S128x1024 .f32) : FVec Ideal S128x1024 .f32 :=
  divf x (broadcastTo S128x1024 (shapeCast S128x1
    (multiReduction .add [1] S128 x 0x00000000#32 reduces_S128x1024_S128 (.inl rfl) rfl) shapeCasts_S128_S128x1) broadcasts_S128x1_S128x1024)

theorem attnVec_apply (x : FVec Ideal S128x1024 .f32) (p : Fin 128) (m : Fin 1024) :
    attnVec x (ix2 p m) = Ideal.div (x (ix2 p m)) (∑ k : Fin 1024, x (ix2 p k)) := by
  unfold attnVec
  exact congrArg (fun z => Ideal.div (x (ix2 p m)) z)
    ((broadcastTo_a1_ab_apply _ _ p m).trans ((shapeCast_a_a1_apply _ _ p 0).trans (laneSum_ab_apply x _ _ _ _ p)))

/-- The body's stored value is the product of the softmax of the scores with the whole encoded matrix. -/
theorem pay_eq (v3 : FVec Ideal S128x10000 .bf16) (v5 : FVec Ideal S1024x10000 .bf16) (v9 : FVec Ideal S128x1 .f32)
    (v13 v17 : FVec Ideal S1x1024 .f32) (v31 : FVec Ideal S1024x10000 .bf16) :
    k1_pay1 (F := Ideal) v3 v5 v9 v13 v17 v31
      = truncf .bf16 (matmul dProd none (truncf .bf16 (attnVec (expVec (scoreVec v3 v5 v9 v13 v17))) bitsLt_bf16_f32)
          (shapeCast S1024x10000 v31 shapeCasts_S1024x10000_S1024x10000) (constant S128x10000 .f32 0x00000000#32)) bitsLt_bf16_f32 := rfl

/-- The stored value at `(p, q)`. -/
theorem pay_apply (v3 : FVec Ideal S128x10000 .bf16) (v5 : FVec Ideal S1024x10000 .bf16) (v9 : FVec Ideal S128x1 .f32)
    (v13 v17 : FVec Ideal S1x1024 .f32) (v31 : FVec Ideal S1024x10000 .bf16) (p : Fin 128) (q : Fin 10000) :
    k1_pay1 (F := Ideal) v3 v5 v9 v13 v17 v31 (ix2 p q)
      = ∑ m : Fin 1024, softRow (scoreRow v3 v5 v9 v13 v17 p) m * v31 (ix2 m q) := by
  rw [pay_eq, truncf_apply, shapeCast_self, prod_apply]
  refine Finset.sum_congr rfl fun m _ => ?_
  rw [truncf_apply, attnVec_apply, expVec_apply]
  simp only [expVec_apply, scoreVec_apply]
  rfl

/-! ## Against the whole-array stage -/

/-- Row `r` of `retrieveOf`, with the softmax spelt by `softRow`. -/
theorem retrieveOf_apply (e : Cert.Stages.Mat 1024 10000) (ic : Cert.Stages.Mat 1024 1) (ir w : Cert.Stages.Mat 1 1024)
    (r : Fin 1024) (q : Fin 10000) :
    Cert.Stages.retrieveOf e ic ir w (ix2 r q)
      = ∑ m : Fin 1024, softRow (fun k => Cert.Stages.weightedOf e ic ir w (ix2 r k)) m * e (ix2 m q) := rfl

/-- When row `p` of the loaded blocks is row `r` of the whole arrays, the stored row `p` is row `r` of `retrieveOf`. -/
theorem pay_eq_retrieve (e : FVec Ideal S1024x10000 .bf16) (ic : FVec Ideal S1024x1 .f32) (ir w : FVec Ideal S1x1024 .f32)
    (xb : FVec Ideal S128x10000 .bf16) (cb : FVec Ideal S128x1 .f32) (p : Fin 128) (r : Fin 1024) (q : Fin 10000)
    (hx : ∀ d : Fin 10000, xb (ix2 p d) = e (ix2 r d)) (hc : cb (ix2 p (0 : Fin 1)) = ic (ix2 r (0 : Fin 1))) :
    k1_pay1 (F := Ideal) xb e cb ir w e (ix2 p q) = Cert.Stages.retrieveOf e ic ir w (ix2 r q) := by
  rw [pay_apply, retrieveOf_apply]
  have hs : scoreRow xb e cb ir w p = fun k => Cert.Stages.weightedOf e ic ir w (ix2 r k) := by
    funext k
    unfold scoreRow
    simp only [hx, hc]
    rfl
  rw [hs]

end Cert.KernelIdeal.Region1

end
-- ==== Proof.Region1.lean ====
/-
  The retrieve kernel on its grid of 8 points: what each point writes back, and the array the run leaves.

  Point `t` holds the whole encoded matrix `e`, the whole column `ic` of reciprocal norms, and the two rows
  `ir`, `w`; it loads rows `128·t … 128·t+127` of `e` and of `ic`, and stores, for `p < 128`, row `p` of
  the block: the softmax-weighted sum of the rows of `e`, which is row `128·t + p` of `retrieveOf e ic ir w`.
  The block of point `t` is written back to rows `128·t … 128·t+127` of the output; row `r` lies in the block
  of point `r / 128`, so the 8 blocks cover the output and it ends holding `retrieveOf e ic ir w`.
-/
import proofs.«133027_j51049981280862_1_alg».proof.Proof.Gen.KernelIdeal.Frame
import proofs.«133027_j51049981280862_1_alg».proof.Proof.Region1Pay
import Idealize.ShloMosaic.Lib.Pipeline.Value
import Idealize.ShloMosaic.Lib.Tactic

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen

theorem hz : (![0, 0] : Fin 2 → Nat) = fun _ => 0 := funext fun a => by fin_cases a <;> rfl

/-! ## What the body leaves in the output's staging buffer -/

section Piece
variable {F : FTy → Type} [FloatOps F]

/-- The body's one store covers the output block; its payload is the body's arithmetic of the 128 rows of the
    first two arrays at the point's offsets and of the whole arrays. -/
theorem out_eq (c : Dev nD) (i : grid1.Coords)
    (a1 : Memref sig .tc .vmem S1024x10000 .bf16) (h1 : a1.IsWhole)
    (a2 : Memref sig .tc .vmem S1024x1 .f32) (h2 : a2.IsWhole)
    (a3 : Memref sig .tc .vmem S1x1024 .f32) (h3 : a3.IsWhole)
    (a4 : Memref sig .tc .vmem S1x1024 .f32) (h4 : a4.IsWhole)
    (a5 : Memref sig .tc .vmem S128x10000 .bf16) (h5 : a5.IsWhole)
    (x0 : Vec F S1024x10000 .bf16) (x1 : Vec F S1024x1 .f32) (x2 : Vec F S1x1024 .f32) (x3 : Vec F S1x1024 .f32) :
    out1_A_4 c i a1 h1 a2 h2 a3 h3 a4 h4 a5 h5 x0 x1 x2 x3
      = k1_pay1 (View.ld x0 (Rect.unit (s := S1024x10000) (k1_off1 i) S128x10000.size (k1_off1_inb i))) x0
          (View.ld x1 (Rect.unit (s := S1024x1) (k1_off2 i) S128x1.size (k1_off2_inb i))) x2 x3 x0 := by
  unfold out1_A_4
  rw [View.read_writes_eq_canon _ _ _ (cover1_A_4 c i a1 h1 a2 h2 a3 h3 a4 h4 a5 h5 x0 x1 x2 x3)]
  unfold kernelRun1_A
  dsimp only
  rw [View.canon_unit_zero hz]
  simp only [View.readAt_eq_ld, h1.read_unread, h2.read_unread, h3.read_unread, h4.read_unread,
    View.ld_unit_zero (S := S1024x10000) hz, View.ld_unit_zero (S := S1x1024) hz]

end Piece

/-! ## A stored row against the whole-array stage -/

/-- With the loaded arrays equal to `e`, `ic`, `ir`, `w` and the two row offsets `128·n`, row `p` of the
    stored block is row `128·n + p` of `retrieveOf e ic ir w`. -/
theorem block_row (e : FVec Ideal S1024x10000 .bf16) (ic : FVec Ideal S1024x1 .f32) (ir w : FVec Ideal S1x1024 .f32)
    (X0 : FVec Ideal S1024x10000 .bf16) (X1 : FVec Ideal S1024x1 .f32) (X2 X3 : FVec Ideal S1x1024 .f32)
    (h0 : X0 = e) (h1 : X1 = ic) (h2 : X2 = ir) (h3 : X3 = w)
    (i : grid1.Coords) (n : ℕ)
    (o10 : k1_off1 i (0 : Fin 2) = 128 * n) (o11 : k1_off1 i (1 : Fin 2) = 0)
    (o20 : k1_off2 i (0 : Fin 2) = 128 * n) (o21 : k1_off2 i (1 : Fin 2) = 0)
    (p : Fin 128) (q : Fin 10000) (r : Fin 1024) (hr : r.val = 128 * n + p.val) :
    k1_pay1 (F := Ideal) (View.ld X0 (Rect.unit (s := S1024x10000) (k1_off1 i) S128x10000.size (k1_off1_inb i))) X0
        (View.ld X1 (Rect.unit (s := S1024x1) (k1_off2 i) S128x1.size (k1_off2_inb i))) X2 X3 X0 (ix2 p q)
      = Cert.Stages.retrieveOf e ic ir w (ix2 r q) := by
  subst h0 h1 h2 h3
  refine pay_eq_retrieve X0 X1 X2 X3 _ _ p r q (fun d => ?_) ?_
  · show X0 ((Rect.unit (s := S1024x10000) (k1_off1 i) S128x10000.size (k1_off1_inb i)).idx (ix2 p d)) = X0 (ix2 r d)
    refine congrArg X0 (funext fun a => Fin.ext ?_)
    match a with
    | ⟨0, _⟩ => show k1_off1 i (0 : Fin 2) + 1 * p.val = r.val; omega
    | ⟨1, _⟩ => show k1_off1 i (1 : Fin 2) + 1 * d.val = d.val; omega
  · show X1 ((Rect.unit (s := S1024x1) (k1_off2 i) S128x1.size (k1_off2_inb i)).idx (ix2 p (0 : Fin 1))) = X1 (ix2 r (0 : Fin 1))
    refine congrArg X1 (funext fun a => Fin.ext ?_)
    match a with
    | ⟨0, _⟩ => show k1_off2 i (0 : Fin 2) + 1 * p.val = r.val; omega
    | ⟨1, _⟩ => show k1_off2 i (1 : Fin 2) + 1 * 0 = 0; omega

/-! ## The index maps over the grid -/

/-- The index maps and load offsets at each of the 8 points: the four inputs' blocks are their whole
    arrays, the output's block index is the point's number, and both loads start at row `128·t`. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ k1_off1 (grid1.coords t) (0 : Fin 2) = 128 * t.val ∧ k1_off1 (grid1.coords t) (1 : Fin 2) = 0
    ∧ k1_off2 (grid1.coords t) (0 : Fin 2) = 128 * t.val ∧ k1_off2 (grid1.coords t) (1 : Fin 2) = 0 :=
  (by decide +kernel : ∀ t : Fin grid1.N, _)

section Blocks
variable (V : (c : Dev nD) → (b : Ref sig .tc) → Buf (Elt Ideal) ((c : Thread nD τ).loc b))

/-- The encoded matrix's block at every point is the whole matrix. -/
theorem iblk_0 (c : Dev nD) (t : Fin cfg1.N) : (iblk1 (F := Ideal) V c 0 t : S1024x10000.Idx → EReal) = V c main_v13_0 := by
  obtain ⟨e0, e1, -⟩ := idx_facts t
  funext y
  show (V c main_v13_0 : S1024x10000.Idx → EReal) (((cfg1.win 0).blk t).view.emb y) = V c main_v13_0 y
  refine congrArg _ (funext fun a => Fin.ext ?_)
  match a with
  | ⟨0, _⟩ => show win1_0.index t (0 : Fin 2) * 1024 + 1 * (y 0).val = (y 0).val; omega
  | ⟨1, _⟩ => show win1_0.index t (1 : Fin 2) * 10000 + 1 * (y 1).val = (y 1).val; omega

/-- The column of reciprocal norms: its block is the whole column. -/
theorem iblk_1 (c : Dev nD) (t : Fin cfg1.N) : (iblk1 (F := Ideal) V c 1 t : S1024x1.Idx → EReal) = V c main_v13_1 := by
  obtain ⟨-, -, e0, e1, -⟩ := idx_facts t
  funext y
  show (V c main_v13_1 : S1024x1.Idx → EReal) (((cfg1.win 1).blk t).view.emb y) = V c main_v13_1 y
  refine congrArg _ (funext fun a => Fin.ext ?_)
  match a with
  | ⟨0, _⟩ => show win1_1.index t (0 : Fin 2) * 1024 + 1 * (y 0).val = (y 0).val; omega
  | ⟨1, _⟩ => show win1_1.index t (1 : Fin 2) * 1 + 1 * (y 1).val = (y 1).val; omega

/-- The row of reciprocal norms: its block is the whole row. -/
theorem iblk_2 (c : Dev nD) (t : Fin cfg1.N) : (iblk1 (F := Ideal) V c 2 t : S1x1024.Idx → EReal) = V c main_v15 := by
  obtain ⟨-, -, -, -, e0, e1, -⟩ := idx_facts t
  funext y
  show (V c main_v15 : S1x1024.Idx → EReal) (((cfg1.win 2).blk t).view.emb y) = V c main_v15 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 1024 + 1 * (y 1).val = (y 1).val; omega

/-- The importance row: its block is the whole row. -/
theorem iblk_3 (c : Dev nD) (t : Fin cfg1.N) : (iblk1 (F := Ideal) V c 3 t : S1x1024.Idx → EReal) = V c main_v14 := by
  obtain ⟨-, -, -, -, -, -, e0, e1, -⟩ := idx_facts t
  funext y
  show (V c main_v14 : S1x1024.Idx → EReal) (((cfg1.win 3).blk t).view.emb y) = V c main_v14 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 1024 + 1 * (y 1).val = (y 1).val; omega

/-! ## What a point writes back -/

/-- Point `t` writes back block `t` of `retrieveOf` of the four arrays as the region finds them. -/
theorem flushed_eq (c : Dev nD) (t : Fin cfg1.N) :
    (dat1 (F := Ideal) V c).flushed 4 t
      = ((cfg1.win 4).blk t).view.read (Elt Ideal)
          (Cert.Stages.retrieveOf (V c main_v13_0) (V c main_v13_1) (V c main_v15) (V c main_v14)) := by
  show (cfg1.win 4).cut (grid1.coords t) ((dat1 (F := Ideal) V c).after 4 t) = _
  rw [after1_4]
  unfold outsAt1
  rw [out_eq (F := Ideal) c (grid1.coords t) (ms1_0 t) (hs1_0 t) (ms1_1 t) (hs1_1 t) (ms1_2 t) (hs1_2 t) (ms1_3 t) (hs1_3 t)
    (ms1_4 t) (hs1_4 t) (iblk1 V c 0 t) (iblk1 V c 1 t) (iblk1 V c 2 t) (iblk1 V c 3 t)]
  have ht : t.val < 8 := lt_of_lt_of_eq t.isLt N_1
  obtain ⟨-, -, -, -, -, -, -, -, e40, e41, o10, o11, o20, o21⟩ := idx_facts t
  funext j
  obtain ⟨p, q, rfl⟩ : ∃ (p : Fin 128) (q : Fin 10000), j = ix2 p q := ⟨j 0, j 1, eq_ix2 j⟩
  refine (block_row (V c main_v13_0) (V c main_v13_1) (V c main_v15) (V c main_v14)
    (iblk1 V c 0 t) (iblk1 V c 1 t) (iblk1 V c 2 t) (iblk1 V c 3 t)
    (iblk_0 V c t) (iblk_1 V c t) (iblk_2 V c t) (iblk_3 V c t) (grid1.coords t) t.val o10 o11 o20 o21 p q
    ⟨128 * t.val + p.val, by have := p.isLt; omega⟩ rfl).trans ?_
  show Cert.Stages.retrieveOf (V c main_v13_0) (V c main_v13_1) (V c main_v15) (V c main_v14) _
    = Cert.Stages.retrieveOf (V c main_v13_0) (V c main_v13_1) (V c main_v15) (V c main_v14) (((cfg1.win 4).blk t).view.emb (ix2 p q))
  refine congrArg _ (funext fun a => Fin.ext ?_)
  match a with
  | ⟨0, _⟩ => show 128 * t.val + p.val = win1_4.index t (0 : Fin 2) * 128 + 1 * p.val; omega
  | ⟨1, _⟩ => show q.val = win1_4.index t (1 : Fin 2) * 10000 + 1 * q.val; omega

/-! ## The blocks cover the output -/

/-- An index of the output is in point `t`'s block iff each coordinate is in the block's range on its axis. -/
theorem mem_blk (t : Fin cfg1.N) (i : S1024x10000.Idx) :
    i ∈ ((cfg1.win 4).blk t).view.set ↔ ∀ a : Fin 2, win1_4.index t a * S128x10000.size a ≤ (i a).val ∧ (i a).val < win1_4.index t a * S128x10000.size a + S128x10000.size a := by
  show i ∈ ((View.whole main_v16).slice (win1_4.rect t)).set ↔ _
  rw [View.set_slice_whole, Rect.mem_set_unit]
  exact Iff.rfl

/-- Row `r` of the output is in the block of point `r / 128`. -/
theorem cover (i : S1024x10000.Idx) :
    ∃ t : Fin cfg1.N, (cfg1.win 4).flush t = true ∧ i ∈ ((cfg1.win 4).blk t).view.set := by
  have hi0 : (i 0).val < 1024 := (i 0).isLt
  have hi1 : (i 1).val < 10000 := (i 1).isLt
  obtain ⟨t, htv⟩ : ∃ t : Fin cfg1.N, t.val = (i 0).val / 128 :=
    ⟨⟨(i 0).val / 128, lt_of_lt_of_eq (by omega : (i 0).val / 128 < 8) N_1.symm⟩, rfl⟩
  obtain ⟨-, -, -, -, -, -, -, -, e40, e41, -⟩ := idx_facts t
  refine ⟨t, flush1_4 t, ?_⟩
  rw [mem_blk]
  intro a
  match a with
  | ⟨0, _⟩ => show win1_4.index t (0 : Fin 2) * 128 ≤ (i 0).val ∧ (i 0).val < win1_4.index t (0 : Fin 2) * 128 + 128; omega
  | ⟨1, _⟩ => show win1_4.index t (1 : Fin 2) * 10000 ≤ (i 1).val ∧ (i 1).val < win1_4.index t (1 : Fin 2) * 10000 + 10000; omega

/-! ## The array the run leaves -/

/-- The output array after the 8 points is `retrieveOf` of the four input arrays as the region finds them. -/
theorem final1 (c : Dev nD) :
    (Gen.dat1 (F := Ideal) V c).arrAt 4 cfg1.N
      = Cert.Stages.retrieveOf (V c main_v13_0) (V c main_v13_1) (V c main_v15) (V c main_v14) :=
  (dat1 (F := Ideal) V c).arrAt_eq_of_cover 4
    (Cert.Stages.retrieveOf (V c main_v13_0) (V c main_v13_1) (V c main_v15) (V c main_v14))
    (fun t _ => flushed_eq V c t) cover

end Blocks

end Cert.KernelIdeal.Region1

end
-- ==== Proof.Region2.lean ====
/-
  The decode stage, read off the third kernel region.

  The region runs over four grid points.  Point `t` takes rows `256·t … 256·t + 255` of the hidden
  activations `h` (a `1024 × 10000` matrix), the whole decoder weight `w` (`1024 × 10000`) and the whole
  bias row `b` (`1 × 1024`), and writes rows `256·t …` of the output.  The value it writes at `(p, q)` of
  its block is `(∑ d, h[256·t + p, d] · w[q, d]) + b[q]`: a product contracting the second axis of both
  operands into a zero accumulator, plus the bias broadcast over the rows.  The four blocks tile the
  `1024` output rows, so the output array is `decodeOf h w b` at every index.
-/
import proofs.«133027_j51049981280862_1_alg».proof.Proof.Gen.KernelIdeal.Frame
import proofs.«133027_j51049981280862_1_alg».proof.Proof.Stages
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx

/-! ## The block's value at an index -/

theorem lhs_axis0 (i : S256x1024.Idx) (k : dot_S256x10000_S1024x10000_S256x1024_1_1_0_0_n_n.contr.Idx) :
    (dot_S256x10000_S1024x10000_S256x1024_1_1_0_0_n_n.lhsIdx i k 0).val = (i 0).val := by
  unfold DotDims.lhsIdx
  rw [dif_neg (show ¬(0 : Fin S256x10000.rank) ∈ dot_S256x10000_S1024x10000_S256x1024_1_1_0_0_n_n.lhsBatch by decide), dif_pos (show (0 : Fin S256x10000.rank) ∈ dot_S256x10000_S1024x10000_S256x1024_1_1_0_0_n_n.lhsNonContracting by decide)]
  rfl
theorem lhs_axis1 (i : S256x1024.Idx) (k : dot_S256x10000_S1024x10000_S256x1024_1_1_0_0_n_n.contr.Idx) :
    (dot_S256x10000_S1024x10000_S256x1024_1_1_0_0_n_n.lhsIdx i k 1).val = (k ⟨0, by decide⟩).val :=
  dot_S256x10000_S1024x10000_S256x1024_1_1_0_0_n_n.lhsIdx_val_of_single rfl i k
theorem rhs_axis0 (i : S256x1024.Idx) (k : dot_S256x10000_S1024x10000_S256x1024_1_1_0_0_n_n.contr.Idx) :
    (dot_S256x10000_S1024x10000_S256x1024_1_1_0_0_n_n.rhsIdx i k 0).val = (i 1).val := by
  unfold DotDims.rhsIdx
  rw [dif_neg (show ¬(0 : Fin S1024x10000.rank) ∈ dot_S256x10000_S1024x10000_S256x1024_1_1_0_0_n_n.rhsBatch by decide), dif_pos (show (0 : Fin S1024x10000.rank) ∈ dot_S256x10000_S1024x10000_S256x1024_1_1_0_0_n_n.rhsNonContracting by decide)]
  rfl
theorem rhs_axis1 (i : S256x1024.Idx) (k : dot_S256x10000_S1024x10000_S256x1024_1_1_0_0_n_n.contr.Idx) :
    (dot_S256x10000_S1024x10000_S256x1024_1_1_0_0_n_n.rhsIdx i k 1).val = (k ⟨0, by decide⟩).val :=
  dot_S256x10000_S1024x10000_S256x1024_1_1_0_0_n_n.rhsIdx_val_of_single rfl i k

/-- The contraction of the second axes: entry `(p, q)` of the product into a zero accumulator is
    `∑ d, x[p, d] · y[q, d]`. -/
theorem matmul_apply (x : FVec Ideal S256x10000 .bf16) (y : FVec Ideal S1024x10000 .bf16) (p : Fin 256) (q : Fin 1024) :
    matmul dot_S256x10000_S1024x10000_S256x1024_1_1_0_0_n_n none x y (constant (F := Ideal) S256x1024 .f32 0x00000000#32) (ix2 p q)
      = ∑ d : Fin 10000, x (ix2 p d) * y (ix2 q d) := by
  refine (Ideal.matmul_constant_zero_apply dot_S256x10000_S1024x10000_S256x1024_1_1_0_0_n_n none x y (ix2 p q)).trans ?_
  rw [← Equiv.sum_comp (contrEquiv1 dot_S256x10000_S1024x10000_S256x1024_1_1_0_0_n_n 10000 rfl rfl).symm]
  refine Finset.sum_congr rfl fun k _ => ?_
  have hk := contrEquiv1_symm_val dot_S256x10000_S1024x10000_S256x1024_1_1_0_0_n_n 10000 rfl rfl k
  have el : dot_S256x10000_S1024x10000_S256x1024_1_1_0_0_n_n.lhsIdx (ix2 p q) ((contrEquiv1 dot_S256x10000_S1024x10000_S256x1024_1_1_0_0_n_n 10000 rfl rfl).symm k) = ix2 p k := funext fun a => Fin.ext (by
    match a with
    | ⟨0, _⟩ => exact lhs_axis0 _ _
    | ⟨1, _⟩ => exact (lhs_axis1 _ _).trans hk)
  have er : dot_S256x10000_S1024x10000_S256x1024_1_1_0_0_n_n.rhsIdx (ix2 p q) ((contrEquiv1 dot_S256x10000_S1024x10000_S256x1024_1_1_0_0_n_n 10000 rfl rfl).symm k) = ix2 q k := funext fun a => Fin.ext (by
    match a with
    | ⟨0, _⟩ => exact (rhs_axis0 _ _)
    | ⟨1, _⟩ => exact (rhs_axis1 _ _).trans hk)
  rw [el, er]

/-- The payload at `(p, q)`: the contraction plus the bias at `q`. -/
theorem pay_apply (x0 : FVec Ideal S256x10000 .bf16) (x1 : FVec Ideal S1024x10000 .bf16) (x2 : FVec Ideal S1x1024 .f32)
    (p : Fin 256) (q : Fin 1024) :
    k2_pay1 (F := Ideal) x0 x1 x2 (ix2 p q) = (∑ d : Fin 10000, x0 (ix2 p d) * x1 (ix2 q d)) + x2 (ix2 (0 : Fin 1) q) := by
  unfold k2_pay1
  rw [shapeCast_self, shapeCast_self, shapeCast_self]
  refine (addf_apply _ _ (ix2 p q)).trans ?_
  refine congrArg₂ (· + ·) (matmul_apply x0 x1 p q) ?_
  exact broadcastTo_1b_ab_apply x2 broadcasts_S1x1024_S256x1024 p q

/-- The payload at an index `j` of the block is the decode stage at an index `i` of the array, as soon as
    row `j 0` of the first block is row `i 0` of `h`, row `j 1` of the second is row `i 1` of `w`, and the
    bias block at `j 1` is `b` at `i 1`. -/
theorem pay_eq_decode (x0 : FVec Ideal S256x10000 .bf16) (x1 : FVec Ideal S1024x10000 .bf16) (x2 : FVec Ideal S1x1024 .f32)
    (h w : Cert.Stages.Mat 1024 10000) (b : Cert.Stages.Mat 1 1024) (j : S256x1024.Idx) (i : S1024x1024.Idx)
    (e0 : ∀ d : Fin 10000, x0 (ix2 (j 0) d) = h (ix2 (i 0) d))
    (e1 : ∀ d : Fin 10000, x1 (ix2 (j 1) d) = w (ix2 (i 1) d))
    (e2 : x2 (ix2 (0 : Fin 1) (j 1)) = b (ix2 (0 : Fin 1) (i 1))) :
    k2_pay1 (F := Ideal) x0 x1 x2 j = Cert.Stages.decodeOf h w b i := by
  obtain ⟨p, q, rfl⟩ : ∃ (p : Fin 256) (q : Fin 1024), j = ix2 p q := ⟨j 0, j 1, eq_ix2 j⟩
  refine (pay_apply x0 x1 x2 p q).trans ?_
  unfold Cert.Stages.decodeOf
  refine congrArg₂ (· + ·) (Finset.sum_congr rfl fun d _ => ?_) e2
  exact congrArg₂ (· * ·) (e0 d) (e1 d)

/-! ## From the blocks to the array -/

theorem hz : (![0, 0] : Fin 2 → Nat) = fun _ => 0 := funext fun a => by fin_cases a <;> rfl

/-- The block indices over the four grid points: the row block of the activations and of the output is the
    point's number; every other block index is `0`. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the decode stage of the arrays the region finds. -/
theorem flushed_eq (V : (c : Dev nD) → (b : Ref sig .tc) → Buf (Elt Ideal) ((c : Thread nD τ).loc b)) (c : Dev nD) (t : Fin cfg2.N) :
    (dat2 (F := Ideal) V c).flushed 3 t
      = ((cfg2.win 3).blk t).view.read (Elt Ideal) (Cert.Stages.decodeOf (V c main_v16) (V c main_v17) (V c main_v18)) := by
  show (cfg2.win 3).cut (grid2.coords t) ((dat2 V c).after 3 t) = _
  rw [after2_3]
  unfold out2_3
  rw [View.canon_unit_zero hz]
  simp only [View.ld_unit_zero (S := S256x10000) hz, View.ld_unit_zero (S := S1024x10000) hz, View.ld_unit_zero (S := S1x1024) hz]
  obtain ⟨f00, f01, f10, f11, f20, f21, f30, f31⟩ := idx_facts t
  funext j
  show k2_pay1 (F := Ideal) (iblk2 V c 0 t) (iblk2 V c 1 t) (iblk2 V c 2 t) j
    = Cert.Stages.decodeOf (V c main_v16) (V c main_v17) (V c main_v18) (((cfg2.win 3).blk t).view.emb j)
  refine pay_eq_decode (iblk2 V c 0 t) (iblk2 V c 1 t) (iblk2 V c 2 t) (V c main_v16) (V c main_v17) (V c main_v18) j
    (((cfg2.win 3).blk t).view.emb j) (fun d => ?_) (fun d => ?_) ?_
  · show V c main_v16 (((cfg2.win 0).blk t).view.emb (ix2 (j 0) d)) = V c main_v16 (ix2 ((((cfg2.win 3).blk t).view.emb j) 0) d)
    refine congrArg (V c main_v16) (funext fun a => Fin.ext ?_)
    match a with
    | ⟨0, _⟩ => show win2_0.index t (0 : Fin 2) * 256 + 1 * (j 0).val = win2_3.index t (0 : Fin 2) * 256 + 1 * (j 0).val; rw [f00, f30]
    | ⟨1, _⟩ => show win2_0.index t (1 : Fin 2) * 10000 + 1 * d.val = d.val; rw [f01]; omega
  · show V c main_v17 (((cfg2.win 1).blk t).view.emb (ix2 (j 1) d)) = V c main_v17 (ix2 ((((cfg2.win 3).blk t).view.emb j) 1) d)
    refine congrArg (V c main_v17) (funext fun a => Fin.ext ?_)
    match a with
    | ⟨0, _⟩ => show win2_1.index t (0 : Fin 2) * 1024 + 1 * (j 1).val = win2_3.index t (1 : Fin 2) * 1024 + 1 * (j 1).val; rw [f10, f31]
    | ⟨1, _⟩ => show win2_1.index t (1 : Fin 2) * 10000 + 1 * d.val = d.val; rw [f11]; omega
  · show V c main_v18 (((cfg2.win 2).blk t).view.emb (ix2 (0 : Fin 1) (j 1))) = V c main_v18 (ix2 (0 : Fin 1) ((((cfg2.win 3).blk t).view.emb j) 1))
    refine congrArg (V c main_v18) (funext fun a => Fin.ext ?_)
    match a with
    | ⟨0, _⟩ => show win2_2.index t (0 : Fin 2) * 1 + 1 * 0 = 0; rw [f20]
    | ⟨1, _⟩ => show win2_2.index t (1 : Fin 2) * 1024 + 1 * (j 1).val = win2_3.index t (1 : Fin 2) * 1024 + 1 * (j 1).val; rw [f21, f31]

/-- An index of the output is in point `t`'s block iff each coordinate is in the block's range on its axis. -/
theorem mem_blk (t : Fin cfg2.N) (i : S1024x1024.Idx) :
    i ∈ ((cfg2.win 3).blk t).view.set ↔ ∀ a : Fin 2, win2_3.index t a * S256x1024.size a ≤ (i a).val ∧ (i a).val < win2_3.index t a * S256x1024.size a + S256x1024.size a := by
  show i ∈ ((View.whole main_v19).slice (win2_3.rect t)).set ↔ _
  rw [View.set_slice_whole, Rect.mem_set_unit]
  exact Iff.rfl

/-- Row `r` of the output lies in the block of point `r / 256`. -/
theorem cover (i : S1024x1024.Idx) : ∃ t : Fin cfg2.N, (cfg2.win 3).flush t = true ∧ i ∈ ((cfg2.win 3).blk t).view.set := by
  have hi0 : (i 0).val < 1024 := (i 0).isLt
  have hi1 : (i 1).val < 1024 := (i 1).isLt
  have hN : cfg2.N = 4 := N_2
  let t : Fin cfg2.N := ⟨(i 0).val / 256, by rw [hN]; omega⟩
  obtain ⟨-, -, -, -, -, -, f30, f31⟩ := idx_facts t
  have ht : t.val = (i 0).val / 256 := rfl
  refine ⟨t, flush2_3 t, ?_⟩
  rw [mem_blk]
  intro a
  match a with
  | ⟨0, _⟩ => show win2_3.index t (0 : Fin 2) * 256 ≤ (i 0).val ∧ (i 0).val < win2_3.index t (0 : Fin 2) * 256 + 256; rw [f30, ht]; omega
  | ⟨1, _⟩ => show win2_3.index t (1 : Fin 2) * 1024 ≤ (i 1).val ∧ (i 1).val < win2_3.index t (1 : Fin 2) * 1024 + 1024; rw [f31]; omega

/-- The output array after the region is the decode stage of the arrays the region finds. -/
theorem final2 (V : (c : Dev nD) → (b : Ref sig .tc) → Buf (Elt Ideal) ((c : Thread nD τ).loc b)) (c : Dev nD) :
    (Gen.dat2 (F := Ideal) V c).arrAt 3 cfg2.N = Cert.Stages.decodeOf (V c main_v16) (V c main_v17) (V c main_v18) :=
  (dat2 (F := Ideal) V c).arrAt_eq_of_cover 3 (Cert.Stages.decodeOf (V c main_v16) (V c main_v17) (V c main_v18))
    (fun t _ => flushed_eq V c t) cover

end Cert.KernelIdeal.Region2

end
-- ==== Proof.lean ====
/-
  A hyperdimensional memory read: encode, retrieve by cosine attention, decode — the kernel against its reference,
  over the extended reals.

  With `x` the input (1024 rows of 1024, behind a unit axis), `B` the base matrix and `W` the decoder matrix
  (1024 × 10000 each), `w` the importance and `b` the bias (1024 each), both programs compute
    E      = x · B̂,                      B̂[k,d] = B[k,d] / c k,   c k = max (√(∑ d, B[k,d]²)) δ
    S[r,m] = ⟨E[r], E[m]⟩ / (n r · n m) · w m,                      n r = max (√(∑ d, E[r,d]²)) ε
    A      = the row softmax of S
    out    = x + (A · E) · Wᵀ + b.
  The reference does so in one line of host operations. The kernel does so in three grid kernels among host
  operations: it scales column `k` of `x` by `1 / c k` instead of dividing row `k` of `B`, and multiplies the inner
  products by `1 / n r` and `1 / n m` instead of dividing by `n r · n m`; every sum is taken blockwise over rows.
  On the extended reals a change of float format is the identity, a blockwise product is the product, and the two
  spellings of each scaling agree because no clamped norm is zero (each is a maximum with a positive constant) —
  products of extended reals commute and associate and the inverse of a product is the product of the inverses, with
  no finiteness needed; so the precondition is not used.

  The modules: `Stages` names the stage functions; `Region0`, `Region1` (over `Region1Pay`), `Region2` read each
  grid kernel's output array as a stage of its inputs; `KRun` is the kernel's run with the result named; `HostReads`
  reads the host operations between the kernels and composes everything into one function of the arguments;
  `Laws` has the arithmetic; `BridgeEnc`, `BridgeAttn`, `BridgeOut` identify that function with the reference's.
-/
import proofs.«133027_j51049981280862_1_alg».proof.Defs
import proofs.«133027_j51049981280862_1_alg».proof.Proof.Gen.Kernel
import proofs.«133027_j51049981280862_1_alg».proof.Proof.Gen.Kernel.Skeleton
import proofs.«133027_j51049981280862_1_alg».proof.Proof.Gen.Kernel.Launch
import proofs.«133027_j51049981280862_1_alg».proof.Proof.Gen.Kernel.Points
import proofs.«133027_j51049981280862_1_alg».proof.Proof.Gen.Kernel.Frame
import proofs.«133027_j51049981280862_1_alg».proof.Proof.Gen.KernelIdeal
import proofs.«133027_j51049981280862_1_alg».proof.Proof.Gen.KernelIdeal.Skeleton
import proofs.«133027_j51049981280862_1_alg».proof.Proof.Gen.KernelIdeal.Launch
import proofs.«133027_j51049981280862_1_alg».proof.Proof.Gen.KernelIdeal.Points
import proofs.«133027_j51049981280862_1_alg».proof.Proof.Gen.KernelIdeal.Frame
import proofs.«133027_j51049981280862_1_alg».proof.Proof.Gen.ReferenceIdeal
import proofs.«133027_j51049981280862_1_alg».proof.Proof.Gen.Pre_finite_inputs
import proofs.«133027_j51049981280862_1_alg».proof.Proof.Gen.ReferenceIdeal.Run
import proofs.«133027_j51049981280862_1_alg».proof.Proof.Gen.ReferenceIdeal.Read
import proofs.«133027_j51049981280862_1_alg».proof.Proof.KRun
import proofs.«133027_j51049981280862_1_alg».proof.Proof.HostReads
import proofs.«133027_j51049981280862_1_alg».proof.Proof.BridgeOut
import proofs.«133027_j51049981280862_1_alg».proof.Proof.Region0
import proofs.«133027_j51049981280862_1_alg».proof.Proof.Region1
import proofs.«133027_j51049981280862_1_alg».proof.Proof.Region2
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the same result: the reference's composed
    function of the arguments. -/
theorem algebraic : Cert.algebraic_KernelIdeal_ReferenceIdeal := by
  intro m ρ m' ρ' _ hagree
  refine ⟨fun c => Cert.ReferenceIdeal.Read.val_main_v42 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩)
      (Cert.KernelIdeal.Run.run_result (F := Ideal) m ρ)
    exact (Cert.KernelIdeal.HostReads.result_eq m ρ c Cert.KernelIdeal.Region0.final0_enc Cert.KernelIdeal.Region0.final0_inv
      Cert.KernelIdeal.Region1.final1 Cert.KernelIdeal.Region2.final2).trans (Cert.Bridge.result_ref _ _ _ _ _)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v42_eq, (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
